-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v36)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v36) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg6 : FVec F S64x64 .f32) (main_arg7 : FVec F S64x64 .f32) (main_arg8 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x64 .f32 := Host.absf main_arg6
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S1600000 32) (main_arg2 : IVec S1600000 32) (main_arg3 : FVec F S64x64 .f32) (main_arg4 : FVec F S64x64 .f32) (main_arg5 : FVec F S64 .f32) (main_arg6 : FVec F S64x64 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg3
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg6 main_arg7 main_arg8 main_v13 main_v16
-- ==== Kernel.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩
abbrev S5000x64 : Shape := ⟨2, ![5000, 64]⟩
abbrev S5000x1 : Shape := ⟨2, ![5000, 1]⟩

abbrev nBuf : Space → Nat
  | .hbm => 60
  | .vmem => 22
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S1x64, .f32⟩
  | .hbm, ⟨43, _⟩ => ⟨S100000x64, .bf16⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x64, .bf16⟩
  | .hbm, ⟨53, _⟩ => ⟨S1600000x64, .f32⟩
  | .hbm, ⟨54, _⟩ => ⟨S_, .f32⟩
  | .hbm, ⟨55, _⟩ => ⟨S100000x64, .f32⟩
  | .hbm, ⟨56, _⟩ => ⟨S1600000x1, .i32⟩
  | .hbm, ⟨57, _⟩ => ⟨S100000x64, .f32⟩
  | .hbm, ⟨58, _⟩ => ⟨S1x64, .f32⟩
  | .hbm, ⟨59, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S5000x64, .f32⟩
  | .local _ .vmem, ⟨3, _⟩ => ⟨S5000x64, .f32⟩
  | .local _ .vmem, ⟨4, _⟩ => ⟨S5000x1, .f32⟩
  | .local _ .vmem, ⟨5, _⟩ => ⟨S5000x1, .f32⟩
  | .local _ .vmem, ⟨6, _⟩ => ⟨S64x64, .f32⟩
  | .local _ .vmem, ⟨7, _⟩ => ⟨S64x64, .f32⟩
  | .local _ .vmem, ⟨8, _⟩ => ⟨S1x64, .f32⟩
  | .local _ .vmem, ⟨9, _⟩ => ⟨S5000x64, .bf16⟩
  | .local _ .vmem, ⟨10, _⟩ => ⟨S5000x64, .bf16⟩
  | .local _ .vmem, ⟨11, _⟩ => ⟨S5000x64, .bf16⟩
  | .local _ .vmem, ⟨12, _⟩ => ⟨S5000x64, .bf16⟩
  | .local _ .vmem, ⟨13, _⟩ => ⟨S5000x64, .f32⟩
  | .local _ .vmem, ⟨14, _⟩ => ⟨S5000x64, .f32⟩
  | .local _ .vmem, ⟨15, _⟩ => ⟨S5000x1, .f32⟩
  | .local _ .vmem, ⟨16, _⟩ => ⟨S5000x1, .f32⟩
  | .local _ .vmem, ⟨17, _⟩ => ⟨S64x64, .f32⟩
  | .local _ .vmem, ⟨18, _⟩ => ⟨S64x64, .f32⟩
  | .local _ .vmem, ⟨19, _⟩ => ⟨S1x64, .f32⟩
  | .local _ .vmem, ⟨20, _⟩ => ⟨S5000x64, .f32⟩
  | .local _ .vmem, ⟨21, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_7 : Ref sig .tc := ⟨.hbm, 44, rfl⟩
abbrev main_v24 : Ref sig .tc := ⟨.hbm, 45, rfl⟩
abbrev main_v25 : Ref sig .tc := ⟨.hbm, 46, rfl⟩
abbrev main_c_8 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg6_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem5_0 : DmaSem sig := 19
abbrev cc1_sem6_0 : DmaSem sig := 20
abbrev cc1_sem6_1 : DmaSem sig := 21

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S64x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S5000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  bcast_S_S100000x64 : S_.BroadcastsInDim S100000x64 (![] : Fin 0 → Fin S100000x64.rank)
  shapeCasts_S64_S1x64 : S64.ShapeCasts S1x64
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  packedbf16_S5000x64_S5000x64_0_0 : (Rect.unit (s := S5000x64) ![0, 0] S5000x64.size inb_S5000x64_S5000x64_0_0).PackedRows (EltTy.packing .bf16)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S5000x64_S64x64_S5000x64_1_0_0_1_n_n_wf : DotDims.WF S5000x64 S64x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x64.size a ≤ S100000x64.size a
  hwx0_1 : ∀ i : grid0.Coords, EltTy.bits .f32 = 32 ∨ (Rect.block (s := S100000x64) S5000x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x1.size a ≤ S100000x1.size a
  hwx0_2 : ∀ i : grid0.Coords, EltTy.bits .f32 = 32 ∨ (Rect.block (s := S100000x1) S5000x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .f32 = 32 ∨ (Rect.block (s := S64x64) S64x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x64.size a ≤ S100000x64.size a
  hwx0_6 : ∀ i : grid0.Coords, EltTy.bits .bf16 = 32 ∨ (Rect.block (s := S100000x64) S5000x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .bf16 = 32 ∨ (Rect.block (s := S100000x64) S5000x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S100000x64.size a
  hwx1_1 : ∀ i : grid1.Coords, EltTy.bits .f32 = 32 ∨ (Rect.block (s := S100000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x1.size a ≤ S100000x1.size a
  hwx1_2 : ∀ i : grid1.Coords, EltTy.bits .f32 = 32 ∨ (Rect.block (s := S100000x1) S5000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S64x64.size a ≤ S64x64.size a
  hwx1_4 : ∀ i : grid1.Coords, EltTy.bits .f32 = 32 ∨ (Rect.block (s := S64x64) S64x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S5000x64.size a ≤ S100000x64.size a
  hwx1_6 : ∀ i : grid1.Coords, EltTy.bits .f32 = 32 ∨ (Rect.block (s := S100000x64) S5000x64.size (cc1_transform_6 i) (hinb1_6 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v21) S5000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v11) S5000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v22) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v23) S5000x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v23) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S5000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S64x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v35) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v36) S5000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S64x64 : Shape := ⟨2, ![64, 64]⟩
abbrev S64 : Shape := ⟨1, ![64]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S1600000x64 : Shape := ⟨2, ![1600000, 64]⟩
abbrev S1x64 : Shape := ⟨2, ![1, 64]⟩

abbrev nBuf : Space → Nat
  | .hbm => 74
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S64x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64x64, .f32⟩
  | .hbm, ⟨8, _⟩ => ⟨S64, .f32⟩
  | .hbm, ⟨9, _⟩ => ⟨S_, .f32⟩
  | .hbm, ⟨10, _⟩ => ⟨S1600000, .f32⟩
  | .hbm, ⟨11, _⟩ => ⟨S_, .f32⟩
  | .hbm, ⟨12, _⟩ => ⟨S100000, .f32⟩
  | .hbm, ⟨13, _⟩ => ⟨S1600000x1, .i32⟩
  | .hbm, ⟨14, _⟩ => ⟨S100000, .f32⟩
  | .hbm, ⟨15, _⟩ => ⟨S_, .f32⟩
  | .hbm, ⟨16, _⟩ => ⟨S100000, .f32⟩
  | .hbm, ⟨17, _⟩ => ⟨S100000, .i1⟩
  | .hbm, ⟨18, _⟩ => ⟨S_, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S100000x1, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x64, .f32⟩
  | .hbm, ⟨38, _⟩ => ⟨S_, .f32⟩
  | .hbm, ⟨39, _⟩ => ⟨S100000x64, .f32⟩
  | .hbm, ⟨40, _⟩ => ⟨S1600000x1, .i32⟩
  | .hbm, ⟨41, _⟩ => ⟨S100000x64, .f32⟩
  | .hbm, ⟨42, _⟩ => ⟨S100000x64, .f32⟩
  | .hbm, ⟨43, _⟩ => ⟨S100000x64, .f32⟩
  | .hbm, ⟨44, _⟩ => ⟨S100000x64, .f32⟩
  | .hbm, ⟨45, _⟩ => ⟨S100000x64, .f32⟩
  | .hbm, ⟨46, _⟩ => ⟨S100000x64, .f32⟩
  | .hbm, ⟨47, _⟩ => ⟨S1x64, .f32⟩
  | .hbm, ⟨48, _⟩ => ⟨S100000x64, .f32⟩
  | .hbm, ⟨49, _⟩ => ⟨S100000x64, .f32⟩
  | .hbm, ⟨50, _⟩ => ⟨S_, .f32⟩
  | .hbm, ⟨51, _⟩ => ⟨S100000x64, .f32⟩
  | .hbm, ⟨52, _⟩ => ⟨S100000x64, .f32⟩
  | .hbm, ⟨53, _⟩ => ⟨S_, .i32⟩
  | .hbm, ⟨54, _⟩ => ⟨S1600000, .i32⟩
  | .hbm, ⟨55, _⟩ => ⟨S1600000, .i1⟩
  | .hbm, ⟨56, _⟩ => ⟨S_, .i32⟩
  | .hbm, ⟨57, _⟩ => ⟨S1600000, .i32⟩
  | .hbm, ⟨58, _⟩ => ⟨S1600000, .i32⟩
  | .hbm, ⟨59, _⟩ => ⟨S1600000, .i32⟩
  | .hbm, ⟨60, _⟩ => ⟨S1600000x1, .i32⟩
  | .hbm, ⟨61, _⟩ => ⟨S1600000x64, .f32⟩
  | .hbm, ⟨62, _⟩ => ⟨S_, .f32⟩
  | .hbm, ⟨63, _⟩ => ⟨S100000x64, .f32⟩
  | .hbm, ⟨64, _⟩ => ⟨S1600000x1, .i32⟩
  | .hbm, ⟨65, _⟩ => ⟨S100000x64, .f32⟩
  | .hbm, ⟨66, _⟩ => ⟨S100000x64, .f32⟩
  | .hbm, ⟨67, _⟩ => ⟨S100000x64, .f32⟩
  | .hbm, ⟨68, _⟩ => ⟨S100000x64, .f32⟩
  | .hbm, ⟨69, _⟩ => ⟨S100000x64, .f32⟩
  | .hbm, ⟨70, _⟩ => ⟨S100000x64, .f32⟩
  | .hbm, ⟨71, _⟩ => ⟨S1x64, .f32⟩
  | .hbm, ⟨72, _⟩ => ⟨S100000x64, .f32⟩
  | .hbm, ⟨73, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_v11 : Ref sig .tc := ⟨.hbm, 28, rfl⟩
abbrev main_c : Ref sig .tc := ⟨.hbm, 29, rfl⟩
abbrev main_v12 : Ref sig .tc := ⟨.hbm, 30, rfl⟩
abbrev main_v13 : Ref sig .tc := ⟨.hbm, 31, rfl⟩
abbrev main_c_5 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_cst_6 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_cst : Ref sig .tc := ⟨.hbm, 50, rfl⟩
abbrev main_call1_v0 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S_S100000x64 : S_.BroadcastsInDim S100000x64 (![] : Fin 0 → Fin S100000x64.rank)
  bcast_S100000x1_S100000x64_0_1 : S100000x1.BroadcastsInDim S100000x64 (![0, 1] : Fin 2 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1600000x1_S1600000_n_0_0_1_wf : ScatterDims.WF S100000 S1600000x1 S1600000 [] [0] [0] 1
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  dot_S100000x64_S64x64_S100000x64_1_0_0_1_n_n_wf : DotDims.WF S100000x64 S64x64 S100000x64 [1] [0] [0] [1] [] []

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.KRun.lean ====
/-
  The kernel program's run with its result named: every weakly fair execution of @main terminates, nothing faulting,
  with the result array `main_v36` holding what the last segment boundary's contents say it holds, and the argument
  arrays as launched.

  @main is six segments: three stretches of host operations, the first pallas_call, a fourth stretch, the second
  pallas_call. The contents of every buffer at each boundary are a fold from the launch memory (`W0` … `W6`); the run
  ends with every unscoped buffer at the last boundary's contents `W6`, and the result array is one of those buffers.
-/
import proofs.«152875_j89850715833230_2_alg».proof.Proof.Gen.KernelIdeal.Frame

set_option maxRecDepth 16384

noncomputable section

namespace Cert.KernelIdeal.Named

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with the result array read off the last boundary's contents. -/
theorem run : θ_run defs (onTc (τ := τ) (main (F := F))) ⟨m, fun _ => 0, ρ⟩ (fun r => ∀ c : Dev nD,
      r.2.mem ((c.tc : Thread nD τ).loc main_v36) = W6 m ρ c (Proc.devRef .tc main_v36)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v36 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.Named

end
-- ==== Proof.LibDotSum.lean ====
/-
  A product contracted over one axis, a bias repeated over rows, and the word for the number one, at an index.

  Three facts about arrays of extended reals read at one entry, none of which mentions a particular size. A product
  of an `M × K` by a `K × N` array contracted over the shared axis is, at `(p, q)`, the sum over `k : Fin K` of
  `A (p, k) · B (k, q)` (`sum_dot`): the contraction's index set has a single axis, so it is in bijection with that
  axis's coordinate, and the operand indices at output `(p, q)` and contraction position `k` are `(p, k)` and `(k, q)`.
  A vector of `m` column values laid out as the one row `[1, m]` and repeated over `n` rows reads, at `(p, q)`, its
  entry `q` (`bias_apply`): a repeated axis of extent one reads coordinate `0`, every other axis its own coordinate.
  The 32-bit word `0x3F800000` denotes the number one (`one_f32`). `add3` is the congruence of a sum of three terms.
-/
import Idealize.ShloMosaic.PureOps.Ideal.Laws
import Idealize.ShloMosaic.Lib.ValueIdx
import Idealize.ShloMosaic.Lib.Pipeline.Value

noncomputable section

namespace Cert.LibDotSum

open Idealize.ShloMosaic Idealize.ShloMosaic.ValueIdx

/-! ## A contraction over one axis as a sum over that axis's coordinate -/

/-- For a product of an `M × K` by a `K × N` array contracted over the shared axis, the sum over the contraction
    index set is the sum over `k : Fin K` of `A (p, k) · B (k, q)`: the contraction index is its one coordinate, and
    the operand indices at output `(p, q)` are `(p, k)` and `(k, q)` (the four hypotheses, which compute on a
    given record of dimension numbers). -/
theorem sum_dot {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (A : (⟨2, ![M, K]⟩ : Shape).Idx → EReal) (B : (⟨2, ![K, N]⟩ : Shape).Idx → EReal) (p : Fin M) (q : Fin N) :
    ∑ k : D.contr.Idx, A (D.lhsIdx (ix2 p q) k) * B (D.rhsIdx (ix2 p q) k) = ∑ k : Fin K, A (ix2 p k) * B (ix2 k q) := by
  refine Fintype.sum_equiv (contrEquiv1 D K hr hs) _ _ fun k => ?_
  have ha : D.lhsIdx (ix2 p q) k = ix2 p (contrEquiv1 D K hr hs k) := by
    funext a
    match a with
    | ⟨0, _⟩ => exact Fin.ext (hl0 _ k)
    | ⟨1, _⟩ => exact Fin.ext (hl1 _ k)
  have hb : D.rhsIdx (ix2 p q) k = ix2 (contrEquiv1 D K hr hs k) q := by
    funext a
    match a with
    | ⟨0, _⟩ => exact Fin.ext (hr0 _ k)
    | ⟨1, _⟩ => exact Fin.ext (hr1 _ k)
  rw [ha, hb]

/-- Three summands equal term by term. -/
theorem add3 {a b c a' b' c' : EReal} (h1 : a = a') (h2 : b = b') (h3 : c = c') : a + b + c = a' + b' + c' := by
  rw [h1, h2, h3]

/-! ## The word for the number one -/

/-- The word `0x3F800000` is the number one. -/
theorem one_f32 : Ideal.ofBits .f32 0x3F800000#32 = 1 := IdealRules.sign_bit.ideal_onePat .f32

/-! ## A bias repeated over rows, at an index -/

/-- A bias vector `[m]`, laid out as the one row `[1, m]` and repeated over `n` rows, reads at `(p, q)` its entry `q`. -/
theorem bias_apply {n m : Nat} {α : Type} (b : (⟨1, ![m]⟩ : Shape).Idx → α)
    (h1 : (⟨1, ![m]⟩ : Shape).BroadcastsInDim ⟨2, ![1, m]⟩ ![1])
    (h2 : (⟨2, ![1, m]⟩ : Shape).BroadcastsInDim ⟨2, ![n, m]⟩ ![0, 1]) (p : Fin n) (q : Fin m) :
    broadcastInDim ⟨2, ![n, m]⟩ ![0, 1] h2 (broadcastInDim ⟨2, ![1, m]⟩ ![1] h1 b) (ix2 p q) = b (ix1 q) := by
  refine (broadcastInDim_apply _ h2 _ (ix2 p q) (ix2 (0 : Fin 1) q) fun a => ?_).trans
    (broadcastInDim_apply _ h1 b (ix2 (0 : Fin 1) q) (ix1 q) fun a => ?_)
  · match a with
    | ⟨0, _⟩ => rfl
    | ⟨1, _⟩ =>
      show q.val = if m = 1 then 0 else q.val
      split
      · have := q.isLt; omega
      · rfl
  · match a with
    | ⟨0, _⟩ =>
      show q.val = if m = 1 then 0 else q.val
      split
      · have := q.isLt; omega
      · rfl

end Cert.LibDotSum

end
-- ==== Proof.LibDenseTwo.lean ====
/-
  A dense layer with TWO products, `max (x · wu + a · wv + b, 0)`, read at an entry at the extended reals, in the two
  spellings a program has for it, for arrays of any extents.

  In a kernel body the products accumulate into zero arrays, the bias arrives as a one-row block [1, N] repeated over the
  M rows, and the zero of the clip is a scalar repeated over the block (`kernel_dense2_apply`). On the host the products
  are `dot_general`s, the bias a vector [N] laid out as [1, N] and repeated over the rows, and the zero a rank-0 constant
  repeated over the array (`host_dense2_apply`). Either way entry (p, q) is

      max ((∑ₖ x(p,k)·wu(k,q) + ∑ₖ a(p,k)·wv(k,q)) + b q, 0),

  the zero left as the word it is written with.
-/
import Idealize.ShloMosaic.PureOps.Ideal.Laws
import Idealize.ShloMosaic.Lib.ValueIdx
import Idealize.ShloMosaic.Lib.Pipeline.Value
import proofs.«152875_j89850715833230_2_alg».proof.Proof.LibDotSum

noncomputable section

namespace Cert.LibDenseTwo

open Idealize.ShloMosaic Idealize.ShloMosaic.ValueIdx

/-- A one-row block [1, N] repeated over M rows reads, at (p, q), its entry (0, q). -/
theorem rowBlock_apply {M N : Nat} {α : Type} (b : (⟨2, ![1, N]⟩ : Shape).Idx → α)
    (hc : (⟨2, ![1, N]⟩ : Shape).ShapeCasts ⟨2, ![1, N]⟩) (hb : (⟨2, ![1, N]⟩ : Shape).Broadcasts ⟨2, ![M, N]⟩)
    (p : Fin M) (q : Fin N) :
    broadcastTo ⟨2, ![M, N]⟩ (shapeCast ⟨2, ![1, N]⟩ b hc) hb (ix2 p q) = b (ix2 (0 : Fin 1) q) := by
  rw [shapeCast_self]
  refine broadcastTo_apply _ hb (ix2 p q) (ix2 (0 : Fin 1) q) fun a => ?_
  match a with
  | ⟨0, _⟩ => rfl
  | ⟨1, _⟩ =>
    show q.val = if N = 1 then 0 else q.val
    split
    · have := q.isLt; omega
    · rfl

/-- A rank-0 constant repeated over a matrix reads its one element everywhere. -/
theorem scalar_bcast_apply {M N : Nat} {α : Type} (v : (⟨0, ![]⟩ : Shape).Idx → α)
    (h : (⟨0, ![]⟩ : Shape).BroadcastsInDim ⟨2, ![M, N]⟩ ![]) (i : (⟨2, ![M, N]⟩ : Shape).Idx) :
    broadcastInDim ⟨2, ![M, N]⟩ ![] h v i = v ix0 :=
  broadcastInDim_apply _ h v i ix0 fun a => a.elim0

/-- The kernel's spelling of the layer at (p, q). -/
theorem kernel_dense2_apply {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (hx : (⟨2, ![M, K]⟩ : Shape).ShapeCasts ⟨2, ![M, K]⟩)
    (hc : (⟨2, ![1, N]⟩ : Shape).ShapeCasts ⟨2, ![1, N]⟩) (hb : (⟨2, ![1, N]⟩ : Shape).Broadcasts ⟨2, ![M, N]⟩)
    (x a : FVec Ideal ⟨2, ![M, K]⟩ .f32) (wu wv : FVec Ideal ⟨2, ![K, N]⟩ .f32) (b : FVec Ideal ⟨2, ![1, N]⟩ .f32)
    (p : Fin M) (q : Fin N) :
    maximumf
        (addf (addf (matmul D none (shapeCast ⟨2, ![M, K]⟩ x hx) wu (constant (F := Ideal) ⟨2, ![M, N]⟩ .f32 0x00000000#32))
            (matmul D none (shapeCast ⟨2, ![M, K]⟩ a hx) wv (constant (F := Ideal) ⟨2, ![M, N]⟩ .f32 0x00000000#32)))
          (broadcastTo ⟨2, ![M, N]⟩ (shapeCast ⟨2, ![1, N]⟩ b hc) hb))
        (broadcast ⟨2, ![M, N]⟩ (Scalar.ofBits (F := Ideal) .f32 0x00000000#32)) (ix2 p q)
      = max ((∑ k : Fin K, x (ix2 p k) * wu (ix2 k q) + ∑ k : Fin K, a (ix2 p k) * wv (ix2 k q)) + b (ix2 (0 : Fin 1) q))
          (Ideal.ofBits .f32 0x00000000#32) := by
  rw [shapeCast_self, shapeCast_self]
  show max ((matmul D none x wu (constant (F := Ideal) ⟨2, ![M, N]⟩ .f32 0x00000000#32) (ix2 p q)
        + matmul D none a wv (constant (F := Ideal) ⟨2, ![M, N]⟩ .f32 0x00000000#32) (ix2 p q))
      + broadcastTo ⟨2, ![M, N]⟩ (shapeCast ⟨2, ![1, N]⟩ b hc) hb (ix2 p q)) (Ideal.ofBits .f32 0x00000000#32) = _
  refine congrArg₂ max (congrArg₂ (· + ·) (congrArg₂ (· + ·) ?_ ?_) (rowBlock_apply b hc hb p q)) rfl
  · exact (Ideal.matmul_constant_zero_apply D none x wu (ix2 p q)).trans (Cert.LibDotSum.sum_dot D hr hs hl0 hl1 hr0 hr1 x wu p q)
  · exact (Ideal.matmul_constant_zero_apply D none a wv (ix2 p q)).trans (Cert.LibDotSum.sum_dot D hr hs hl0 hl1 hr0 hr1 a wv p q)

/-- The host's spelling of the layer at (p, q). -/
theorem host_dense2_apply {M K N : Nat} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (h1 : (⟨1, ![N]⟩ : Shape).BroadcastsInDim ⟨2, ![1, N]⟩ ![1])
    (h2 : (⟨2, ![1, N]⟩ : Shape).BroadcastsInDim ⟨2, ![M, N]⟩ ![0, 1])
    (h0 : (⟨0, ![]⟩ : Shape).BroadcastsInDim ⟨2, ![M, N]⟩ ![])
    (x a : FVec Ideal ⟨2, ![M, K]⟩ .f32) (wu wv : FVec Ideal ⟨2, ![K, N]⟩ .f32) (b : FVec Ideal ⟨1, ![N]⟩ .f32)
    (p : Fin M) (q : Fin N) :
    maximumf
        (addf (addf (Host.dotGeneral D none x wu) (Host.dotGeneral D none a wv))
          (broadcastInDim ⟨2, ![M, N]⟩ ![0, 1] h2 (broadcastInDim ⟨2, ![1, N]⟩ ![1] h1 b)))
        (broadcastInDim ⟨2, ![M, N]⟩ ![] h0 (constant (F := Ideal) ⟨0, ![]⟩ .f32 0x00000000#32)) (ix2 p q)
      = max ((∑ k : Fin K, x (ix2 p k) * wu (ix2 k q) + ∑ k : Fin K, a (ix2 p k) * wv (ix2 k q)) + b (ix1 q))
          (Ideal.ofBits .f32 0x00000000#32) := by
  show max ((Host.dotGeneral D none x wu (ix2 p q) + Host.dotGeneral D none a wv (ix2 p q))
      + broadcastInDim ⟨2, ![M, N]⟩ ![0, 1] h2 (broadcastInDim ⟨2, ![1, N]⟩ ![1] h1 b) (ix2 p q))
      (broadcastInDim ⟨2, ![M, N]⟩ ![] h0 (constant (F := Ideal) ⟨0, ![]⟩ .f32 0x00000000#32) (ix2 p q)) = _
  refine congrArg₂ max (congrArg₂ (· + ·) (congrArg₂ (· + ·) ?_ ?_) (Cert.LibDotSum.bias_apply b h1 h2 p q))
    (scalar_bcast_apply _ h0 (ix2 p q))
  · exact (Ideal.dotGeneral_apply D none .single x wu (ix2 p q)).trans (Cert.LibDotSum.sum_dot D hr hs hl0 hl1 hr0 hr1 x wu p q)
  · exact (Ideal.dotGeneral_apply D none .single a wv (ix2 p q)).trans (Cert.LibDotSum.sum_dot D hr hs hl0 hl1 hr0 hr1 a wv p q)

end Cert.LibDenseTwo

end
-- ==== Proof.LibLinTwo.lean ====
/-
  The affine part of a layer with TWO products, `x · wu + a · wv + b`, read at an entry at the extended reals, in the two
  spellings a program has for it, for arrays of any extents and operands of any float formats; and a per-row scale
  repeated along the rows, read at an entry.

  In a kernel body the products accumulate into zero arrays and the bias arrives as a one-row block [1, N] repeated over
  the M rows (`kernel_lin2_apply`); on the host the products are `dot_general`s and the bias a vector [N] laid out as
  [1, N] and repeated over the rows (`host_lin2_apply`). Either way entry (p, q) is

      (∑ₖ x(p,k)·wu(k,q) + ∑ₖ a(p,k)·wv(k,q)) + b q.

  A column [M, 1] repeated over N columns reads at (p, q) its entry (p, 0), in the kernel's spelling (`colBlock_apply`)
  and in the host's, where the column is itself a vector [M] laid out as [M, 1] (`colVec_apply`, `col_apply`); a vector
  reshaped to a column or to a row reads its own entry (`reshape_col_apply`, `reshape_row_apply`).
-/
import Idealize.ShloMosaic.PureOps.Ideal.Laws
import Idealize.ShloMosaic.Lib.ValueIdx
import Idealize.ShloMosaic.Lib.Pipeline.Value
import proofs.«152875_j89850715833230_2_alg».proof.Proof.LibDotSum
import proofs.«152875_j89850715833230_2_alg».proof.Proof.LibDenseTwo

noncomputable section

namespace Cert.LibLinTwo

open Idealize.ShloMosaic Idealize.ShloMosaic.ValueIdx

/-! ## A per-row scale repeated along the rows -/

/-- A column block [M, 1] repeated over N columns reads, at (p, q), its entry (p, 0). -/
theorem colBlock_apply {M N : Nat} {α : Type} (v : (⟨2, ![M, 1]⟩ : Shape).Idx → α)
    (hc : (⟨2, ![M, 1]⟩ : Shape).ShapeCasts ⟨2, ![M, 1]⟩) (hb : (⟨2, ![M, 1]⟩ : Shape).Broadcasts ⟨2, ![M, N]⟩)
    (p : Fin M) (q : Fin N) :
    broadcastTo ⟨2, ![M, N]⟩ (shapeCast ⟨2, ![M, 1]⟩ v hc) hb (ix2 p q) = v (ix2 p (0 : Fin 1)) := by
  rw [shapeCast_self]
  refine broadcastTo_apply _ hb (ix2 p q) (ix2 p (0 : Fin 1)) fun a => ?_
  match a with
  | ⟨0, _⟩ =>
    show p.val = if M = 1 then 0 else p.val
    split
    · have := p.isLt; omega
    · rfl
  | ⟨1, _⟩ => rfl

/-- On the host, a column [M, 1] repeated over N columns reads, at (p, q), its entry (p, 0). -/
theorem col_apply {M N : Nat} {α : Type} (v : (⟨2, ![M, 1]⟩ : Shape).Idx → α)
    (h2 : (⟨2, ![M, 1]⟩ : Shape).BroadcastsInDim ⟨2, ![M, N]⟩ ![0, 1]) (p : Fin M) (q : Fin N) :
    broadcastInDim ⟨2, ![M, N]⟩ ![0, 1] h2 v (ix2 p q) = v (ix2 p (0 : Fin 1)) := by
  refine broadcastInDim_apply _ h2 v (ix2 p q) (ix2 p (0 : Fin 1)) fun a => ?_
  match a with
  | ⟨0, _⟩ =>
    show p.val = if M = 1 then 0 else p.val
    split
    · have := p.isLt; omega
    · rfl
  | ⟨1, _⟩ => rfl

/-- A vector [M] laid out as the column [M, 1] reads, at (p, 0), its entry p. -/
theorem colVec_apply {M : Nat} {α : Type} (d : (⟨1, ![M]⟩ : Shape).Idx → α)
    (h1 : (⟨1, ![M]⟩ : Shape).BroadcastsInDim ⟨2, ![M, 1]⟩ ![0]) (p : Fin M) :
    broadcastInDim ⟨2, ![M, 1]⟩ ![0] h1 d (ix2 p (0 : Fin 1)) = d (ix1 p) := by
  refine broadcastInDim_apply _ h1 d (ix2 p (0 : Fin 1)) (ix1 p) fun a => ?_
  match a with
  | ⟨0, _⟩ =>
    show p.val = if M = 1 then 0 else p.val
    split
    · have := p.isLt; omega
    · rfl

/-- A vector [M] reshaped to the column [M, 1] reads, at (p, 0), its entry p. -/
theorem reshape_col_apply {M : Nat} {α : Type} (d : (⟨1, ![M]⟩ : Shape).Idx → α)
    (h : (⟨1, ![M]⟩ : Shape).ShapeCasts ⟨2, ![M, 1]⟩) (p : Fin M) :
    shapeCast ⟨2, ![M, 1]⟩ d h (ix2 p (0 : Fin 1)) = d (ix1 p) := by
  refine shapeCast_apply d h (ix2 p (0 : Fin 1)) (ix1 p) ?_
  rw [Shape.rowMajor_val_one, Shape.rowMajor_val_two]
  show p.val = p.val * 1 + 0
  omega

/-- A vector [N] reshaped to the row [1, N] reads, at (0, q), its entry q. -/
theorem reshape_row_apply {N : Nat} {α : Type} (b : (⟨1, ![N]⟩ : Shape).Idx → α)
    (h : (⟨1, ![N]⟩ : Shape).ShapeCasts ⟨2, ![1, N]⟩) (q : Fin N) :
    shapeCast ⟨2, ![1, N]⟩ b h (ix2 (0 : Fin 1) q) = b (ix1 q) := by
  refine shapeCast_apply b h (ix2 (0 : Fin 1) q) (ix1 q) ?_
  rw [Shape.rowMajor_val_one, Shape.rowMajor_val_two]
  show q.val = 0 * N + q.val
  omega

/-! ## Two products and a bias -/

/-- The kernel's spelling of the affine part at (p, q). -/
theorem kernel_lin2_apply {M K N : Nat} {φ₁ φ₂ φ₃ φ₄ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (hc : (⟨2, ![1, N]⟩ : Shape).ShapeCasts ⟨2, ![1, N]⟩) (hb : (⟨2, ![1, N]⟩ : Shape).Broadcasts ⟨2, ![M, N]⟩)
    (x : FVec Ideal ⟨2, ![M, K]⟩ φ₁) (a : FVec Ideal ⟨2, ![M, K]⟩ φ₂)
    (wu : FVec Ideal ⟨2, ![K, N]⟩ φ₃) (wv : FVec Ideal ⟨2, ![K, N]⟩ φ₄) (b : FVec Ideal ⟨2, ![1, N]⟩ .f32)
    (p : Fin M) (q : Fin N) :
    addf (addf (matmul D none x wu (constant (F := Ideal) ⟨2, ![M, N]⟩ .f32 0x00000000#32))
          (matmul D none a wv (constant (F := Ideal) ⟨2, ![M, N]⟩ .f32 0x00000000#32)))
        (broadcastTo ⟨2, ![M, N]⟩ (shapeCast ⟨2, ![1, N]⟩ b hc) hb) (ix2 p q)
      = (∑ k : Fin K, x (ix2 p k) * wu (ix2 k q) + ∑ k : Fin K, a (ix2 p k) * wv (ix2 k q)) + b (ix2 (0 : Fin 1) q) := by
  show (matmul D none x wu (constant (F := Ideal) ⟨2, ![M, N]⟩ .f32 0x00000000#32) (ix2 p q)
        + matmul D none a wv (constant (F := Ideal) ⟨2, ![M, N]⟩ .f32 0x00000000#32) (ix2 p q))
      + broadcastTo ⟨2, ![M, N]⟩ (shapeCast ⟨2, ![1, N]⟩ b hc) hb (ix2 p q) = _
  refine congrArg₂ (· + ·) (congrArg₂ (· + ·) ?_ ?_) (Cert.LibDenseTwo.rowBlock_apply b hc hb p q)
  · exact (Ideal.matmul_constant_zero_apply D none x wu (ix2 p q)).trans (Cert.LibDotSum.sum_dot D hr hs hl0 hl1 hr0 hr1 x wu p q)
  · exact (Ideal.matmul_constant_zero_apply D none a wv (ix2 p q)).trans (Cert.LibDotSum.sum_dot D hr hs hl0 hl1 hr0 hr1 a wv p q)

/-- The host's spelling of the affine part at (p, q). -/
theorem host_lin2_apply {M K N : Nat} {φ₁ φ₂ φ₃ φ₄ : FTy} (D : DotDims ⟨2, ![M, K]⟩ ⟨2, ![K, N]⟩ ⟨2, ![M, N]⟩)
    (hr : D.contr.rank = 1) (hs : D.contr.size ⟨0, by omega⟩ = K)
    (hl0 : ∀ j k, (D.lhsIdx j k 0).val = (j 0).val) (hl1 : ∀ j k, (D.lhsIdx j k 1).val = (k ⟨0, by omega⟩).val)
    (hr0 : ∀ j k, (D.rhsIdx j k 0).val = (k ⟨0, by omega⟩).val) (hr1 : ∀ j k, (D.rhsIdx j k 1).val = (j 1).val)
    (h1 : (⟨1, ![N]⟩ : Shape).BroadcastsInDim ⟨2, ![1, N]⟩ ![1])
    (h2 : (⟨2, ![1, N]⟩ : Shape).BroadcastsInDim ⟨2, ![M, N]⟩ ![0, 1])
    (x : FVec Ideal ⟨2, ![M, K]⟩ φ₁) (a : FVec Ideal ⟨2, ![M, K]⟩ φ₂)
    (wu : FVec Ideal ⟨2, ![K, N]⟩ φ₃) (wv : FVec Ideal ⟨2, ![K, N]⟩ φ₄) (b : FVec Ideal ⟨1, ![N]⟩ .f32)
    (p : Fin M) (q : Fin N) :
    addf (addf (Host.dotGeneral (F := Ideal) D none x wu) (Host.dotGeneral (F := Ideal) D none a wv))
        (broadcastInDim ⟨2, ![M, N]⟩ ![0, 1] h2 (broadcastInDim ⟨2, ![1, N]⟩ ![1] h1 b)) (ix2 p q)
      = (∑ k : Fin K, x (ix2 p k) * wu (ix2 k q) + ∑ k : Fin K, a (ix2 p k) * wv (ix2 k q)) + b (ix1 q) := by
  show (Host.dotGeneral (F := Ideal) D none x wu (ix2 p q) + Host.dotGeneral (F := Ideal) D none a wv (ix2 p q))
      + broadcastInDim ⟨2, ![M, N]⟩ ![0, 1] h2 (broadcastInDim ⟨2, ![1, N]⟩ ![1] h1 b) (ix2 p q) = _
  refine congrArg₂ (· + ·) (congrArg₂ (· + ·) ?_ ?_) (Cert.LibDotSum.bias_apply b h1 h2 p q)
  · exact (Ideal.dotGeneral_apply D none .single x wu (ix2 p q)).trans (Cert.LibDotSum.sum_dot D hr hs hl0 hl1 hr0 hr1 x wu p q)
  · exact (Ideal.dotGeneral_apply D none .single a wv (ix2 p q)).trans (Cert.LibDotSum.sum_dot D hr hs hl0 hl1 hr0 hr1 a wv p q)

end Cert.LibLinTwo

end
-- ==== Proof.Spec.lean ====
/-
  One graph-convolution layer (mean aggregation over in-neighbours, then two linear maps and a bias), as a function of
  its arrays read at a node `p` and an output feature `q`.

  With node features `x` [M, 64], the summed neighbour features `agg` [M, 64], the per-node scale `inv` [M, 1]
  (one over the in-degree, or zero), weights `ws`, `wn` [64, 64] and a bias row `b` [1, 64]:

      lin x agg inv ws wn b p q = (∑ₖ x(p,k)·ws(k,q) + ∑ₖ (agg(p,k)·inv(p,0))·wn(k,q)) + b(0,q).

  Entry (p, q) depends on row `p` of `x`, `agg` and `inv` only (`lin_congr`): a block of rows of the result is the
  same function of the blocks of rows of the operands, which is what lets a kernel compute it tile by tile.
  `layerRelu` is the first layer (clipped below at the zero word), `layerLin` the second, each as a whole array;
  `colOf` and `rowOf` see a vector as a one-column and as a one-row matrix.
-/
import Idealize.ShloMosaic.PureOps.Ideal
import Idealize.ShloMosaic.Lib.ValueIdx

noncomputable section

namespace Cert.Sage

open Idealize.ShloMosaic Idealize.ShloMosaic.ValueIdx

/-- The affine part of one layer at node `p`, feature `q`. -/
def lin {M : Nat} (x agg : (⟨2, ![M, 64]⟩ : Shape).Idx → EReal) (inv : (⟨2, ![M, 1]⟩ : Shape).Idx → EReal)
    (ws wn : (⟨2, ![64, 64]⟩ : Shape).Idx → EReal) (b : (⟨2, ![1, 64]⟩ : Shape).Idx → EReal) (p : Fin M) (q : Fin 64) : EReal :=
  (∑ k : Fin 64, x (ix2 p k) * ws (ix2 k q) + ∑ k : Fin 64, (agg (ix2 p k) * inv (ix2 p (0 : Fin 1))) * wn (ix2 k q))
    + b (ix2 (0 : Fin 1) q)

/-- Entry (p, q) reads row `p` of the node arrays only: if row `p'` of another triple of arrays holds the same
    numbers, the entries agree. -/
theorem lin_congr {M M' : Nat} (x agg : (⟨2, ![M, 64]⟩ : Shape).Idx → EReal) (inv : (⟨2, ![M, 1]⟩ : Shape).Idx → EReal)
    (x' agg' : (⟨2, ![M', 64]⟩ : Shape).Idx → EReal) (inv' : (⟨2, ![M', 1]⟩ : Shape).Idx → EReal)
    (ws wn : (⟨2, ![64, 64]⟩ : Shape).Idx → EReal) (b : (⟨2, ![1, 64]⟩ : Shape).Idx → EReal) (p : Fin M) (p' : Fin M') (q : Fin 64)
    (hx : ∀ k : Fin 64, x (ix2 p k) = x' (ix2 p' k)) (ha : ∀ k : Fin 64, agg (ix2 p k) = agg' (ix2 p' k))
    (hi : inv (ix2 p (0 : Fin 1)) = inv' (ix2 p' (0 : Fin 1))) :
    lin x agg inv ws wn b p q = lin x' agg' inv' ws wn b p' q := by
  unfold lin
  rw [hi]
  refine congrArg₂ (· + ·) (congrArg₂ (· + ·) (Finset.sum_congr rfl fun k _ => ?_) (Finset.sum_congr rfl fun k _ => ?_)) rfl
  · rw [hx k]
  · rw [ha k]

/-- A vector [M] seen as the column [M, 1]. -/
def colOf {M : Nat} (d : (⟨1, ![M]⟩ : Shape).Idx → EReal) : (⟨2, ![M, 1]⟩ : Shape).Idx → EReal := fun i => d (ix1 (i 0))
/-- A vector [N] seen as the row [1, N]. -/
def rowOf {N : Nat} (b : (⟨1, ![N]⟩ : Shape).Idx → EReal) : (⟨2, ![1, N]⟩ : Shape).Idx → EReal := fun i => b (ix1 (i 1))

/-- The first layer as a whole array: the affine part clipped below at the zero word. -/
def layerRelu {M : Nat} (x agg : (⟨2, ![M, 64]⟩ : Shape).Idx → EReal) (inv : (⟨2, ![M, 1]⟩ : Shape).Idx → EReal)
    (ws wn : (⟨2, ![64, 64]⟩ : Shape).Idx → EReal) (b : (⟨2, ![1, 64]⟩ : Shape).Idx → EReal) :
    (⟨2, ![M, 64]⟩ : Shape).Idx → EReal :=
  fun i => max (lin x agg inv ws wn b (i 0) (i 1)) (Ideal.ofBits .f32 0x00000000#32)

/-- The second layer as a whole array: the affine part. -/
def layerLin {M : Nat} (x agg : (⟨2, ![M, 64]⟩ : Shape).Idx → EReal) (inv : (⟨2, ![M, 1]⟩ : Shape).Idx → EReal)
    (ws wn : (⟨2, ![64, 64]⟩ : Shape).Idx → EReal) (b : (⟨2, ![1, 64]⟩ : Shape).Idx → EReal) :
    (⟨2, ![M, 64]⟩ : Shape).Idx → EReal :=
  fun i => lin x agg inv ws wn b (i 0) (i 1)

end Cert.Sage

end
-- ==== Proof.Body.lean ====
/-
  What each kernel body stores, read at an entry: for blocks of 5000 rows, the first body's stored block is the
  layer's affine part of the loaded blocks clipped below at zero, the second body's the affine part itself.

  A body loads a block of node features, a block of summed neighbour features, the block of per-node scales (a column),
  both weight matrices and the bias row; scales the neighbour sums row by row, multiplies both by their weights into zero
  accumulators, adds the two products and the bias, and (the first layer only) clips below at zero. Rounding a block to
  a shorter float format changes nothing at the extended reals, so every such step reads through.
-/
import proofs.«152875_j89850715833230_2_alg».proof.Proof.Gen.KernelIdeal.Skeleton
import proofs.«152875_j89850715833230_2_alg».proof.Proof.Gen.KernelIdeal
import proofs.«152875_j89850715833230_2_alg».proof.Proof.LibLinTwo
import proofs.«152875_j89850715833230_2_alg».proof.Proof.Spec

noncomputable section

namespace Cert.Sage

open Idealize.ShloMosaic Idealize.ShloMosaic.ValueIdx Cert.KernelIdeal Cert.KernelIdeal.Gen

/-- The scaled neighbour block at (p, k): the neighbour sum times the row's scale. -/
theorem scaled_apply (x1 : Vec Ideal S5000x64 .f32) (x2 : Vec Ideal S5000x1 .f32) (p : Fin 5000) (k : Fin 64) :
    (truncf .bf16 (mulf (shapeCast S5000x64 x1 shapeCasts_S5000x64_S5000x64)
        (broadcastTo S5000x64 (shapeCast S5000x1 x2 shapeCasts_S5000x1_S5000x1) broadcasts_S5000x1_S5000x64)) bitsLt_bf16_f32
      : FVec Ideal S5000x64 .bf16) (ix2 p k) = x1 (ix2 p k) * x2 (ix2 p (0 : Fin 1)) := by
  show shapeCast S5000x64 x1 shapeCasts_S5000x64_S5000x64 (ix2 p k)
      * broadcastTo S5000x64 (shapeCast S5000x1 x2 shapeCasts_S5000x1_S5000x1) broadcasts_S5000x1_S5000x64 (ix2 p k) = _
  rw [shapeCast_self]
  exact congrArg (x1 (ix2 p k) * ·) (Cert.LibLinTwo.colBlock_apply x2 shapeCasts_S5000x1_S5000x1 broadcasts_S5000x1_S5000x64 p k)

/-- The second body's stored block at (p, q): the affine part of the loaded blocks. -/
theorem pay1_apply (x0 : Vec Ideal S5000x64 .bf16) (x1 : Vec Ideal S5000x64 .f32) (x2 : Vec Ideal S5000x1 .f32)
    (x3 x4 : Vec Ideal S64x64 .f32) (x5 : Vec Ideal S1x64 .f32) (p : Fin 5000) (q : Fin 64) :
    k1_pay1 (F := Ideal) x0 x1 x2 x3 x4 x5 (ix2 p q) = lin x0 x1 x2 x3 x4 x5 p q := by
  unfold k1_pay1 lin
  refine (Cert.LibLinTwo.kernel_lin2_apply dot_S5000x64_S64x64_S5000x64_1_0_0_1_n_n rfl rfl
    (fun _ _ => rfl) (fun _ _ => rfl) (fun _ _ => rfl) (fun _ _ => rfl) shapeCasts_S1x64_S1x64 broadcasts_S1x64_S5000x64
    (shapeCast S5000x64 x0 shapeCasts_S5000x64_S5000x64)
    (truncf .bf16 (mulf (shapeCast S5000x64 x1 shapeCasts_S5000x64_S5000x64)
        (broadcastTo S5000x64 (shapeCast S5000x1 x2 shapeCasts_S5000x1_S5000x1) broadcasts_S5000x1_S5000x64)) bitsLt_bf16_f32)
    (truncf .bf16 x3 bitsLt_bf16_f32) (truncf .bf16 x4 bitsLt_bf16_f32) x5 p q).trans ?_
  refine congrArg₂ (· + ·) (congrArg₂ (· + ·) (Finset.sum_congr rfl fun k _ => ?_) (Finset.sum_congr rfl fun k _ => ?_)) rfl
  · rw [shapeCast_self]; rfl
  · exact congrArg (· * x4 (ix2 k q)) (scaled_apply x1 x2 p k)

/-- The first body's stored block at (p, q): the affine part of the loaded blocks, clipped below at the zero word. -/
theorem pay0_apply (x0 x1 : Vec Ideal S5000x64 .f32) (x2 : Vec Ideal S5000x1 .f32)
    (x3 x4 : Vec Ideal S64x64 .f32) (x5 : Vec Ideal S1x64 .f32) (p : Fin 5000) (q : Fin 64) :
    k0_pay1 (F := Ideal) x0 x1 x2 x3 x4 x5 (ix2 p q)
      = max (lin x0 x1 x2 x3 x4 x5 p q) (Ideal.ofBits .f32 0x00000000#32) := by
  unfold k0_pay1 lin
  refine congrArg (max · (Ideal.ofBits .f32 0x00000000#32)) ?_
  refine (Cert.LibLinTwo.kernel_lin2_apply dot_S5000x64_S64x64_S5000x64_1_0_0_1_n_n rfl rfl
    (fun _ _ => rfl) (fun _ _ => rfl) (fun _ _ => rfl) (fun _ _ => rfl) shapeCasts_S1x64_S1x64 broadcasts_S1x64_S5000x64
    (truncf .bf16 x0 bitsLt_bf16_f32)
    (truncf .bf16 (mulf (shapeCast S5000x64 x1 shapeCasts_S5000x64_S5000x64)
        (broadcastTo S5000x64 (shapeCast S5000x1 x2 shapeCasts_S5000x1_S5000x1) broadcasts_S5000x1_S5000x64)) bitsLt_bf16_f32)
    (truncf .bf16 x3 bitsLt_bf16_f32) (truncf .bf16 x4 bitsLt_bf16_f32) x5 p q).trans ?_
  refine congrArg₂ (· + ·) (congrArg₂ (· + ·) rfl (Finset.sum_congr rfl fun k _ => ?_)) rfl
  exact congrArg (· * x4 (ix2 k q)) (scaled_apply x1 x2 p k)

end Cert.Sage

end
-- ==== Proof.Region0.lean ====
/-
  The first pallas_call's result array, whatever the buffers hold when the region is entered: the whole [100000, 64]
  array ends at the first layer (the affine part clipped below at zero) of the six arrays the region reads.

  The grid has 20 points; point `t` reads rows `5000·t … 5000·t + 4999` of the node features, of the neighbour sums and of
  the scale column, the whole of both weight matrices and of the bias row, and writes back rows `5000·t …` of the result.
  An entry of the layer depends on its own row of the node arrays only, so what point `t` writes back is block `t` of
  the whole-array function; the 20 blocks tile the array (row `r` lies in block `r / 5000`), so the array ends at
  that function everywhere.
-/
import proofs.«152875_j89850715833230_2_alg».proof.Proof.Gen.KernelIdeal.Frame
import proofs.«152875_j89850715833230_2_alg».proof.Proof.Body

set_option maxRecDepth 16384

noncomputable section

namespace Cert.Sage

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zero_offsets0 : (![0, 0] : Fin 2 → Nat) = fun _ => 0 := funext fun a => by fin_cases a <;> rfl

/-- Where each window's block sits at grid point `t`: the node arrays' and the result's at block row `t`, the weights'
    and the bias row's at the origin; every block spans all its columns. Decided over the 20 points. -/
theorem block_index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-- Row `p` of block `t` is row `5000·t + p` of the array. -/
def row0 (t : Fin cfg0.N) (p : Fin 5000) : Fin 100000 :=
  ⟨t.val * 5000 + p.val, by have h : t.val < 20 := N_0 ▸ t.isLt; have := p.isLt; omega⟩

/-! ## Where a block's entry sits in its array -/

theorem emb0_0 (t : Fin cfg0.N) (p : Fin 5000) (k : Fin 64) :
    ((cfg0.win 0).blk t).view.emb (ix2 p k) = ix2 (row0 t p) k := by
  obtain ⟨e00, e01, e10, e11, e20, e21, e30, e31, e40, e41, e50, e51, e60, e61⟩ := block_index0 t
  funext a; apply Fin.ext
  match a with
  | ⟨0, _⟩ => show win0_0.index t (0 : Fin 2) * 5000 + 1 * p.val = t.val * 5000 + p.val; omega
  | ⟨1, _⟩ => show win0_0.index t (1 : Fin 2) * 64 + 1 * k.val = k.val; omega
theorem emb0_1 (t : Fin cfg0.N) (p : Fin 5000) (k : Fin 64) :
    ((cfg0.win 1).blk t).view.emb (ix2 p k) = ix2 (row0 t p) k := by
  obtain ⟨e00, e01, e10, e11, e20, e21, e30, e31, e40, e41, e50, e51, e60, e61⟩ := block_index0 t
  funext a; apply Fin.ext
  match a with
  | ⟨0, _⟩ => show win0_1.index t (0 : Fin 2) * 5000 + 1 * p.val = t.val * 5000 + p.val; omega
  | ⟨1, _⟩ => show win0_1.index t (1 : Fin 2) * 64 + 1 * k.val = k.val; omega
theorem emb0_2 (t : Fin cfg0.N) (p : Fin 5000) :
    ((cfg0.win 2).blk t).view.emb (ix2 p (0 : Fin 1)) = ix2 (row0 t p) (0 : Fin 1) := by
  obtain ⟨e00, e01, e10, e11, e20, e21, e30, e31, e40, e41, e50, e51, e60, e61⟩ := block_index0 t
  funext a; apply Fin.ext
  match a with
  | ⟨0, _⟩ => show win0_2.index t (0 : Fin 2) * 5000 + 1 * p.val = t.val * 5000 + p.val; omega
  | ⟨1, _⟩ => show win0_2.index t (1 : Fin 2) * 1 + 1 * 0 = 0; omega
theorem emb0_3 (t : Fin cfg0.N) (k q : Fin 64) :
    ((cfg0.win 3).blk t).view.emb (ix2 k q) = ix2 k q := by
  obtain ⟨e00, e01, e10, e11, e20, e21, e30, e31, e40, e41, e50, e51, e60, e61⟩ := block_index0 t
  funext a; apply Fin.ext
  match a with
  | ⟨0, _⟩ => show win0_3.index t (0 : Fin 2) * 64 + 1 * k.val = k.val; omega
  | ⟨1, _⟩ => show win0_3.index t (1 : Fin 2) * 64 + 1 * q.val = q.val; omega
theorem emb0_4 (t : Fin cfg0.N) (k q : Fin 64) :
    ((cfg0.win 4).blk t).view.emb (ix2 k q) = ix2 k q := by
  obtain ⟨e00, e01, e10, e11, e20, e21, e30, e31, e40, e41, e50, e51, e60, e61⟩ := block_index0 t
  funext a; apply Fin.ext
  match a with
  | ⟨0, _⟩ => show win0_4.index t (0 : Fin 2) * 64 + 1 * k.val = k.val; omega
  | ⟨1, _⟩ => show win0_4.index t (1 : Fin 2) * 64 + 1 * q.val = q.val; omega
theorem emb0_5 (t : Fin cfg0.N) (q : Fin 64) :
    ((cfg0.win 5).blk t).view.emb (ix2 (0 : Fin 1) q) = ix2 (0 : Fin 1) q := by
  obtain ⟨e00, e01, e10, e11, e20, e21, e30, e31, e40, e41, e50, e51, e60, e61⟩ := block_index0 t
  funext a; apply Fin.ext
  match a with
  | ⟨0, _⟩ => show win0_5.index t (0 : Fin 2) * 1 + 1 * 0 = 0; omega
  | ⟨1, _⟩ => show win0_5.index t (1 : Fin 2) * 64 + 1 * q.val = q.val; omega
theorem emb0_6 (t : Fin cfg0.N) (p : Fin 5000) (k : Fin 64) :
    ((cfg0.win 6).blk t).view.emb (ix2 p k) = ix2 (row0 t p) k := by
  obtain ⟨e00, e01, e10, e11, e20, e21, e30, e31, e40, e41, e50, e51, e60, e61⟩ := block_index0 t
  funext a; apply Fin.ext
  match a with
  | ⟨0, _⟩ => show win0_6.index t (0 : Fin 2) * 5000 + 1 * p.val = t.val * 5000 + p.val; omega
  | ⟨1, _⟩ => show win0_6.index t (1 : Fin 2) * 64 + 1 * k.val = k.val; omega

/-! ## The result -/

/-- The first layer (the affine part clipped below at zero) of the arrays the region finds at its six input windows. -/
def result0 (c : Dev nD) : S100000x64.Idx → EReal :=
  layerRelu (M := 100000) (V c main_arg0) (V c main_v21) (V c main_v11) (V c main_arg3) (V c main_arg4) (V c main_v22)

/-- WHAT POINT `t` WRITES BACK is block `t` of that layer of the arrays as the region finds them. -/
theorem flushed0_eq (c : Dev nD) (t : Fin cfg0.N) :
    (dat0 V c).flushed 6 t = ((cfg0.win 6).blk t).view.read (Elt Ideal) (result0 V c) := by
  show (cfg0.win 6).cut (grid0.coords t) ((dat0 V c).after 6 t) = _
  rw [after0_6]
  unfold out0_6
  rw [View.canon_unit_zero zero_offsets0]
  simp only [View.ld_unit_zero (S := S5000x64) zero_offsets0, View.ld_unit_zero (S := S5000x1) zero_offsets0,
    View.ld_unit_zero (S := S64x64) zero_offsets0, View.ld_unit_zero (S := S1x64) zero_offsets0]
  funext j
  obtain ⟨p, q, rfl⟩ : ∃ (p : Fin 5000) (q : Fin 64), j = ix2 p q := ⟨j 0, j 1, eq_ix2 j⟩
  show k0_pay1 (F := Ideal) (iblk0 V c 0 t) (iblk0 V c 1 t) (iblk0 V c 2 t) (iblk0 V c 3 t) (iblk0 V c 4 t) (iblk0 V c 5 t) (ix2 p q)
    = result0 V c (((cfg0.win 6).blk t).view.emb (ix2 p q))
  refine (pay0_apply (iblk0 V c 0 t) (iblk0 V c 1 t) (iblk0 V c 2 t) (iblk0 V c 3 t) (iblk0 V c 4 t) (iblk0 V c 5 t) p q).trans ?_
  rw [emb0_6 t p q]
  show max (lin (iblk0 V c 0 t) (iblk0 V c 1 t) (iblk0 V c 2 t) (iblk0 V c 3 t) (iblk0 V c 4 t) (iblk0 V c 5 t) p q) (Ideal.ofBits .f32 0x00000000#32)
    = max (lin (M := 100000) (V c main_arg0) (V c main_v21) (V c main_v11) (V c main_arg3) (V c main_arg4) (V c main_v22) (row0 t p) q) (Ideal.ofBits .f32 0x00000000#32)
  refine congrArg (max · (Ideal.ofBits .f32 0x00000000#32)) ?_
  unfold lin
  refine congrArg₂ (· + ·) (congrArg₂ (· + ·) (Finset.sum_congr rfl fun k _ => congrArg₂ (· * ·) ?_ ?_)
    (Finset.sum_congr rfl fun k _ => congrArg₂ (· * ·) (congrArg₂ (· * ·) ?_ ?_) ?_)) ?_
  · show V c main_arg0 (((cfg0.win 0).blk t).view.emb (ix2 p k)) = _
    rw [emb0_0 t p k]
  · show V c main_arg3 (((cfg0.win 3).blk t).view.emb (ix2 k q)) = _
    rw [emb0_3 t k q]
  · show V c main_v21 (((cfg0.win 1).blk t).view.emb (ix2 p k)) = _
    rw [emb0_1 t p k]
  · show V c main_v11 (((cfg0.win 2).blk t).view.emb (ix2 p (0 : Fin 1))) = _
    rw [emb0_2 t p]
  · show V c main_arg4 (((cfg0.win 4).blk t).view.emb (ix2 k q)) = _
    rw [emb0_4 t k q]
  · show V c main_v22 (((cfg0.win 5).blk t).view.emb (ix2 (0 : Fin 1) q)) = _
    rw [emb0_5 t q]

/-- An index of the result array is in point `t`'s block iff each coordinate is in the block's range on its axis. -/
theorem mem_blk0 (t : Fin cfg0.N) (i : S100000x64.Idx) :
    i ∈ ((cfg0.win 6).blk t).view.set ↔ ∀ a : Fin 2, win0_6.index t a * S5000x64.size a ≤ (i a).val ∧ (i a).val < win0_6.index t a * S5000x64.size a + S5000x64.size a := by
  show i ∈ ((View.whole main_v23).slice (win0_6.rect t)).set ↔ _
  rw [View.set_slice_whole, Rect.mem_set_unit]
  exact Iff.rfl

/-- Every index of the result array lies in the block of the point `(i 0) / 5000`, which is written back. -/
theorem cover0 (i : S100000x64.Idx) :
    ∃ t : Fin cfg0.N, (cfg0.win 6).flush t = true ∧ i ∈ ((cfg0.win 6).blk t).view.set := by
  have hi0 : (i 0).val < 100000 := (i 0).isLt
  have hi1 : (i 1).val < 64 := (i 1).isLt
  let t : Fin cfg0.N := ⟨(i 0).val / 5000, by show (i 0).val / 5000 < grid0.N; rw [N_0]; omega⟩
  have ht : t.val = (i 0).val / 5000 := rfl
  obtain ⟨e00, e01, e10, e11, e20, e21, e30, e31, e40, e41, e50, e51, e60, e61⟩ := block_index0 t
  refine ⟨t, flush0_6 t, ?_⟩
  rw [mem_blk0]
  intro a
  match a with
  | ⟨0, _⟩ => show win0_6.index t (0 : Fin 2) * 5000 ≤ (i 0).val ∧ (i 0).val < win0_6.index t (0 : Fin 2) * 5000 + 5000; omega
  | ⟨1, _⟩ => show win0_6.index t (1 : Fin 2) * 64 ≤ (i 1).val ∧ (i 1).val < win0_6.index t (1 : Fin 2) * 64 + 64; omega

/-- THE RESULT ARRAY after the region: the first layer (the affine part clipped below at zero) of the arrays the region found. -/
theorem final0 (c : Dev nD) : (dat0 V c).arrAt 6 cfg0.N = result0 V c :=
  (dat0 V c).arrAt_eq_of_cover 6 (result0 V c) (fun t _ => flushed0_eq V c t) (cover0)

end Cert.Sage

end
-- ==== Proof.Region1.lean ====
/-
  The second pallas_call's result array, whatever the buffers hold when the region is entered: the whole [100000, 64]
  array ends at the second layer (the affine part) of the six arrays the region reads.

  The grid has 20 points; point `t` reads rows `5000·t … 5000·t + 4999` of the node features, of the neighbour sums and of
  the scale column, the whole of both weight matrices and of the bias row, and writes back rows `5000·t …` of the result.
  An entry of the layer depends on its own row of the node arrays only, so what point `t` writes back is block `t` of
  the whole-array function; the 20 blocks tile the array (row `r` lies in block `r / 5000`), so the array ends at
  that function everywhere.
-/
import proofs.«152875_j89850715833230_2_alg».proof.Proof.Gen.KernelIdeal.Frame
import proofs.«152875_j89850715833230_2_alg».proof.Proof.Body

set_option maxRecDepth 16384

noncomputable section

namespace Cert.Sage

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

theorem zero_offsets1 : (![0, 0] : Fin 2 → Nat) = fun _ => 0 := funext fun a => by fin_cases a <;> rfl

/-- Where each window's block sits at grid point `t`: the node arrays' and the result's at block row `t`, the weights'
    and the bias row's at the origin; every block spans all its columns. Decided over the 20 points. -/
theorem block_index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

/-- Row `p` of block `t` is row `5000·t + p` of the array. -/
def row1 (t : Fin cfg1.N) (p : Fin 5000) : Fin 100000 :=
  ⟨t.val * 5000 + p.val, by have h : t.val < 20 := N_1 ▸ t.isLt; have := p.isLt; omega⟩

/-! ## Where a block's entry sits in its array -/

theorem emb1_0 (t : Fin cfg1.N) (p : Fin 5000) (k : Fin 64) :
    ((cfg1.win 0).blk t).view.emb (ix2 p k) = ix2 (row1 t p) k := by
  obtain ⟨e00, e01, e10, e11, e20, e21, e30, e31, e40, e41, e50, e51, e60, e61⟩ := block_index1 t
  funext a; apply Fin.ext
  match a with
  | ⟨0, _⟩ => show win1_0.index t (0 : Fin 2) * 5000 + 1 * p.val = t.val * 5000 + p.val; omega
  | ⟨1, _⟩ => show win1_0.index t (1 : Fin 2) * 64 + 1 * k.val = k.val; omega
theorem emb1_1 (t : Fin cfg1.N) (p : Fin 5000) (k : Fin 64) :
    ((cfg1.win 1).blk t).view.emb (ix2 p k) = ix2 (row1 t p) k := by
  obtain ⟨e00, e01, e10, e11, e20, e21, e30, e31, e40, e41, e50, e51, e60, e61⟩ := block_index1 t
  funext a; apply Fin.ext
  match a with
  | ⟨0, _⟩ => show win1_1.index t (0 : Fin 2) * 5000 + 1 * p.val = t.val * 5000 + p.val; omega
  | ⟨1, _⟩ => show win1_1.index t (1 : Fin 2) * 64 + 1 * k.val = k.val; omega
theorem emb1_2 (t : Fin cfg1.N) (p : Fin 5000) :
    ((cfg1.win 2).blk t).view.emb (ix2 p (0 : Fin 1)) = ix2 (row1 t p) (0 : Fin 1) := by
  obtain ⟨e00, e01, e10, e11, e20, e21, e30, e31, e40, e41, e50, e51, e60, e61⟩ := block_index1 t
  funext a; apply Fin.ext
  match a with
  | ⟨0, _⟩ => show win1_2.index t (0 : Fin 2) * 5000 + 1 * p.val = t.val * 5000 + p.val; omega
  | ⟨1, _⟩ => show win1_2.index t (1 : Fin 2) * 1 + 1 * 0 = 0; omega
theorem emb1_3 (t : Fin cfg1.N) (k q : Fin 64) :
    ((cfg1.win 3).blk t).view.emb (ix2 k q) = ix2 k q := by
  obtain ⟨e00, e01, e10, e11, e20, e21, e30, e31, e40, e41, e50, e51, e60, e61⟩ := block_index1 t
  funext a; apply Fin.ext
  match a with
  | ⟨0, _⟩ => show win1_3.index t (0 : Fin 2) * 64 + 1 * k.val = k.val; omega
  | ⟨1, _⟩ => show win1_3.index t (1 : Fin 2) * 64 + 1 * q.val = q.val; omega
theorem emb1_4 (t : Fin cfg1.N) (k q : Fin 64) :
    ((cfg1.win 4).blk t).view.emb (ix2 k q) = ix2 k q := by
  obtain ⟨e00, e01, e10, e11, e20, e21, e30, e31, e40, e41, e50, e51, e60, e61⟩ := block_index1 t
  funext a; apply Fin.ext
  match a with
  | ⟨0, _⟩ => show win1_4.index t (0 : Fin 2) * 64 + 1 * k.val = k.val; omega
  | ⟨1, _⟩ => show win1_4.index t (1 : Fin 2) * 64 + 1 * q.val = q.val; omega
theorem emb1_5 (t : Fin cfg1.N) (q : Fin 64) :
    ((cfg1.win 5).blk t).view.emb (ix2 (0 : Fin 1) q) = ix2 (0 : Fin 1) q := by
  obtain ⟨e00, e01, e10, e11, e20, e21, e30, e31, e40, e41, e50, e51, e60, e61⟩ := block_index1 t
  funext a; apply Fin.ext
  match a with
  | ⟨0, _⟩ => show win1_5.index t (0 : Fin 2) * 1 + 1 * 0 = 0; omega
  | ⟨1, _⟩ => show win1_5.index t (1 : Fin 2) * 64 + 1 * q.val = q.val; omega
theorem emb1_6 (t : Fin cfg1.N) (p : Fin 5000) (k : Fin 64) :
    ((cfg1.win 6).blk t).view.emb (ix2 p k) = ix2 (row1 t p) k := by
  obtain ⟨e00, e01, e10, e11, e20, e21, e30, e31, e40, e41, e50, e51, e60, e61⟩ := block_index1 t
  funext a; apply Fin.ext
  match a with
  | ⟨0, _⟩ => show win1_6.index t (0 : Fin 2) * 5000 + 1 * p.val = t.val * 5000 + p.val; omega
  | ⟨1, _⟩ => show win1_6.index t (1 : Fin 2) * 64 + 1 * k.val = k.val; omega

/-! ## The result -/

/-- The second layer (the affine part) of the arrays the region finds at its six input windows. -/
def result1 (c : Dev nD) : S100000x64.Idx → EReal :=
  layerLin (M := 100000) (V c main_v23) (V c main_v34) (V c main_v11) (V c main_arg6) (V c main_arg7) (V c main_v35)

/-- WHAT POINT `t` WRITES BACK is block `t` of that layer of the arrays as the region finds them. -/
theorem flushed1_eq (c : Dev nD) (t : Fin cfg1.N) :
    (dat1 V c).flushed 6 t = ((cfg1.win 6).blk t).view.read (Elt Ideal) (result1 V c) := by
  show (cfg1.win 6).cut (grid1.coords t) ((dat1 V c).after 6 t) = _
  rw [after1_6]
  unfold out1_6
  rw [View.canon_unit_zero zero_offsets1]
  simp only [View.ld_unit_zero (S := S5000x64) zero_offsets1, View.ld_unit_zero (S := S5000x1) zero_offsets1,
    View.ld_unit_zero (S := S64x64) zero_offsets1, View.ld_unit_zero (S := S1x64) zero_offsets1]
  funext j
  obtain ⟨p, q, rfl⟩ : ∃ (p : Fin 5000) (q : Fin 64), j = ix2 p q := ⟨j 0, j 1, eq_ix2 j⟩
  show k1_pay1 (F := Ideal) (iblk1 V c 0 t) (iblk1 V c 1 t) (iblk1 V c 2 t) (iblk1 V c 3 t) (iblk1 V c 4 t) (iblk1 V c 5 t) (ix2 p q)
    = result1 V c (((cfg1.win 6).blk t).view.emb (ix2 p q))
  refine (pay1_apply (iblk1 V c 0 t) (iblk1 V c 1 t) (iblk1 V c 2 t) (iblk1 V c 3 t) (iblk1 V c 4 t) (iblk1 V c 5 t) p q).trans ?_
  rw [emb1_6 t p q]
  show lin (iblk1 V c 0 t) (iblk1 V c 1 t) (iblk1 V c 2 t) (iblk1 V c 3 t) (iblk1 V c 4 t) (iblk1 V c 5 t) p q
    = lin (M := 100000) (V c main_v23) (V c main_v34) (V c main_v11) (V c main_arg6) (V c main_arg7) (V c main_v35) (row1 t p) q
  unfold lin
  refine congrArg₂ (· + ·) (congrArg₂ (· + ·) (Finset.sum_congr rfl fun k _ => congrArg₂ (· * ·) ?_ ?_)
    (Finset.sum_congr rfl fun k _ => congrArg₂ (· * ·) (congrArg₂ (· * ·) ?_ ?_) ?_)) ?_
  · show V c main_v23 (((cfg1.win 0).blk t).view.emb (ix2 p k)) = _
    rw [emb1_0 t p k]
  · show V c main_arg6 (((cfg1.win 3).blk t).view.emb (ix2 k q)) = _
    rw [emb1_3 t k q]
  · show V c main_v34 (((cfg1.win 1).blk t).view.emb (ix2 p k)) = _
    rw [emb1_1 t p k]
  · show V c main_v11 (((cfg1.win 2).blk t).view.emb (ix2 p (0 : Fin 1))) = _
    rw [emb1_2 t p]
  · show V c main_arg7 (((cfg1.win 4).blk t).view.emb (ix2 k q)) = _
    rw [emb1_4 t k q]
  · show V c main_v35 (((cfg1.win 5).blk t).view.emb (ix2 (0 : Fin 1) q)) = _
    rw [emb1_5 t q]

/-- An index of the result array is in point `t`'s block iff each coordinate is in the block's range on its axis. -/
theorem mem_blk1 (t : Fin cfg1.N) (i : S100000x64.Idx) :
    i ∈ ((cfg1.win 6).blk t).view.set ↔ ∀ a : Fin 2, win1_6.index t a * S5000x64.size a ≤ (i a).val ∧ (i a).val < win1_6.index t a * S5000x64.size a + S5000x64.size a := by
  show i ∈ ((View.whole main_v36).slice (win1_6.rect t)).set ↔ _
  rw [View.set_slice_whole, Rect.mem_set_unit]
  exact Iff.rfl

/-- Every index of the result array lies in the block of the point `(i 0) / 5000`, which is written back. -/
theorem cover1 (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  let t : Fin cfg1.N := ⟨(i 0).val / 5000, by show (i 0).val / 5000 < grid1.N; rw [N_1]; omega⟩
  have ht : t.val = (i 0).val / 5000 := rfl
  obtain ⟨e00, e01, e10, e11, e20, e21, e30, e31, e40, e41, e50, e51, e60, e61⟩ := block_index1 t
  refine ⟨t, flush1_6 t, ?_⟩
  rw [mem_blk1]
  intro a
  match a with
  | ⟨0, _⟩ => show win1_6.index t (0 : Fin 2) * 5000 ≤ (i 0).val ∧ (i 0).val < win1_6.index t (0 : Fin 2) * 5000 + 5000; omega
  | ⟨1, _⟩ => show win1_6.index t (1 : Fin 2) * 64 ≤ (i 1).val ∧ (i 1).val < win1_6.index t (1 : Fin 2) * 64 + 64; omega

/-- THE RESULT ARRAY after the region: the second layer (the affine part) of the arrays the region found. -/
theorem final1 (c : Dev nD) : (dat1 V c).arrAt 6 cfg1.N = result1 V c :=
  (dat1 V c).arrAt_eq_of_cover 6 (result1 V c) (fun t _ => flushed1_eq V c t) (cover1)

end Cert.Sage

end
-- ==== Proof.ChainA.lean ====
/-
  What the first pallas_call finds: the contents of its six input arrays when the region is entered, as functions of
  the launch contents of the program's arguments.

  Before the region the host computes, from the edge list alone, the in-degree of every node and the per-node scale
  (one over the in-degree, zero for a node with no in-edge), and from the node features and the edge list the summed
  neighbour features; it lays the scale out as a column [100000, 1] and the bias as a row [1, 64]. The shared pieces
  get names in the kernel program's own vocabulary (`aggK`, `invK`) and stay closed.
-/
import proofs.«152875_j89850715833230_2_alg».proof.Proof.Gen.KernelIdeal.Frame

set_option maxRecDepth 16384

noncomputable section

namespace Cert.Sage.Ker

open Idealize.ShloMosaic Idealize.ShloMosaic.TcCoe Idealize.SL.Sem Idealize.ShloMosaic.StableHlo
open Cert.KernelIdeal Cert.KernelIdeal.Gen

variable {F : FTy → Type} [FloatOps F]

/-- The summed neighbour features: `h` gathered along the edges' sources (a negative index wrapped by the node count)
    and added into the edges' destinations, from the zero array. -/
def aggK (h : FVec F S100000x64 .f32) (src dst : IVec S1600000 32) :
    FVec F S100000x64 .f32 :=
  Host.scatterAdd (F := F) scatter_S100000x64_S1600000x1_S1600000x64_1_0_0_1
    (broadcastInDim S100000x64 ![] bcast_S_S100000x64 (constant (F := F) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The in-degree of every node: ones added into the edges' destinations. -/
def degK (dst : IVec S1600000 32) : FVec F S100000 .f32 :=
  Host.scatterAdd (F := F) scatter_S100000_S1600000x1_S1600000_n_0_0_1
    (broadcastInDim S100000 ![] bcast_S_S100000 (constant (F := F) S_ .f32 0x00000000#32))
    (broadcastInDim S1600000x1 ![0] bcast_S1600000_S1600000x1_0 dst)
    (broadcastInDim S1600000 ![] bcast_S_S1600000 (constant (F := F) S_ .f32 0x3F800000#32))

/-- The per-node scale: one over the in-degree where it is positive, zero elsewhere. -/
def invK (dst : IVec S1600000 32) : FVec F S100000 .f32 :=
  select (cmpf (F := F) .ogt (degK dst) (broadcastInDim S100000 ![] bcast_S_S100000 (constant (F := F) S_ .f32 0x00000000#32)))
    (Host.divf (F := F) (broadcastInDim S100000 ![] bcast_S_S100000 (constant (F := F) S_ .f32 0x3F800000#32))
      (maximumf (F := F) (degK dst) (broadcastInDim S100000 ![] bcast_S_S100000 (constant (F := F) S_ .f32 0x3F800000#32))))
    (broadcastInDim S100000 ![] bcast_S_S100000 (id (constant (F := F) S_ .f32 0x00000000#32)))

variable (m : (ℓ : Loc nD τ sig) → Buf (Elt F) ℓ) (ρ : Dev nD → PrngReg)

/-! ## The arguments at the first region's entry: no host operation writes one -/

theorem W3_arg0 (c : Dev nD) : W3 m ρ c (Proc.devRef .tc main_arg0) = m ((c.tc : Thread nD τ).loc main_arg0) := by
  dsimp only [W3, W2, W1]
  simp only [hostOps0, hostOps0_1, hostOps0_2]
  after_results_simp <;> rfl
theorem W3_arg1 (c : Dev nD) : W3 m ρ c (Proc.devRef .tc main_arg1) = m ((c.tc : Thread nD τ).loc main_arg1) := by
  dsimp only [W3, W2, W1]
  simp only [hostOps0, hostOps0_1, hostOps0_2]
  after_results_simp <;> rfl
theorem W3_arg2 (c : Dev nD) : W3 m ρ c (Proc.devRef .tc main_arg2) = m ((c.tc : Thread nD τ).loc main_arg2) := by
  dsimp only [W3, W2, W1]
  simp only [hostOps0, hostOps0_1, hostOps0_2]
  after_results_simp <;> rfl
theorem W3_arg3 (c : Dev nD) : W3 m ρ c (Proc.devRef .tc main_arg3) = m ((c.tc : Thread nD τ).loc main_arg3) := by
  dsimp only [W3, W2, W1]
  simp only [hostOps0, hostOps0_1, hostOps0_2]
  after_results_simp <;> rfl
theorem W3_arg4 (c : Dev nD) : W3 m ρ c (Proc.devRef .tc main_arg4) = m ((c.tc : Thread nD τ).loc main_arg4) := by
  dsimp only [W3, W2, W1]
  simp only [hostOps0, hostOps0_1, hostOps0_2]
  after_results_simp <;> rfl
theorem W3_arg5 (c : Dev nD) : W3 m ρ c (Proc.devRef .tc main_arg5) = m ((c.tc : Thread nD τ).loc main_arg5) := by
  dsimp only [W3, W2, W1]
  simp only [hostOps0, hostOps0_1, hostOps0_2]
  after_results_simp <;> rfl
theorem W3_arg6 (c : Dev nD) : W3 m ρ c (Proc.devRef .tc main_arg6) = m ((c.tc : Thread nD τ).loc main_arg6) := by
  dsimp only [W3, W2, W1]
  simp only [hostOps0, hostOps0_1, hostOps0_2]
  after_results_simp <;> rfl
theorem W3_arg7 (c : Dev nD) : W3 m ρ c (Proc.devRef .tc main_arg7) = m ((c.tc : Thread nD τ).loc main_arg7) := by
  dsimp only [W3, W2, W1]
  simp only [hostOps0, hostOps0_1, hostOps0_2]
  after_results_simp <;> rfl
theorem W3_arg8 (c : Dev nD) : W3 m ρ c (Proc.devRef .tc main_arg8) = m ((c.tc : Thread nD τ).loc main_arg8) := by
  dsimp only [W3, W2, W1]
  simp only [hostOps0, hostOps0_1, hostOps0_2]
  after_results_simp <;> rfl

/-! ## The computed arrays at the first region's entry -/

/-- The summed neighbour features of the input node features. -/
theorem W3_v21 (c : Dev nD) : W3 m ρ c (Proc.devRef .tc main_v21)
    = aggK (m ((c.tc : Thread nD τ).loc main_arg0)) (m ((c.tc : Thread nD τ).loc main_arg1)) (m ((c.tc : Thread nD τ).loc main_arg2)) := by
  dsimp only [W3, W2, W1]
  simp only [hostOps0, hostOps0_1, hostOps0_2]
  after_results_simp
  rfl

/-- The per-node scale, laid out as a column. -/
theorem W3_v11 (c : Dev nD) : W3 m ρ c (Proc.devRef .tc main_v11)
    = shapeCast S100000x1 (invK (m ((c.tc : Thread nD τ).loc main_arg2))) shapeCasts_S100000_S100000x1 := by
  dsimp only [W3, W2, W1]
  simp only [hostOps0, hostOps0_1, hostOps0_2]
  after_results_simp
  rfl

/-- The first layer's bias, laid out as a row. -/
theorem W3_v22 (c : Dev nD) : W3 m ρ c (Proc.devRef .tc main_v22)
    = shapeCast S1x64 (m ((c.tc : Thread nD τ).loc main_arg5)) shapeCasts_S64_S1x64 := by
  dsimp only [W3, W2, W1]
  simp only [hostOps0, hostOps0_1, hostOps0_2]
  after_results_simp
  rfl

end Cert.Sage.Ker

end
-- ==== Proof.ChainB.lean ====
/-
  What the second pallas_call finds: the contents of its six input arrays when that region is entered, as functions of
  what the first region left.

  Between the regions the host gathers the first layer's output along the edges (a negative source index wrapped),
  widens it from the short float format, sums it into the destination nodes from the zero array, and lays the second
  bias out as a row. The first layer's output, the scale column and the second layer's weights are not written.
-/
import proofs.«152875_j89850715833230_2_alg».proof.Proof.Gen.KernelIdeal.Frame

set_option maxRecDepth 16384

noncomputable section

namespace Cert.Sage.Ker

open Idealize.ShloMosaic Idealize.ShloMosaic.TcCoe Idealize.SL.Sem Idealize.ShloMosaic.StableHlo
open Cert.KernelIdeal Cert.KernelIdeal.Gen

variable {F : FTy → Type} [FloatOps F]

/-- The summed neighbour features of node features held in the short float format: gathered along the edges' sources
    (a negative index wrapped by the node count), widened, and added into the edges' destinations from the zero array. -/
def aggKb (h : FVec F S100000x64 .bf16) (src dst : IVec S1600000 32) : FVec F S100000x64 .f32 :=
  Host.scatterAdd (F := F) scatter_S100000x64_S1600000x1_S1600000x64_1_0_0_1
    (broadcastInDim S100000x64 ![] bcast_S_S100000x64 (constant (F := F) S_ .f32 0x00000000#32))
    (broadcastInDim S1600000x1 ![0] bcast_S1600000_S1600000x1_0 dst)
    (extf .f32 (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src))) bitsLt_bf16_f32)

variable (m : (ℓ : Loc nD τ sig) → Buf (Elt F) ℓ) (ρ : Dev nD → PrngReg)

/-- The first layer's output is not written between the regions. -/
theorem W5_v23 (c : Dev nD) : W5 m ρ c (Proc.devRef .tc main_v23) = W4 m ρ c (Proc.devRef .tc main_v23) := by
  dsimp only [W5]
  simp only [hostOps1]
  after_results_simp <;> rfl

/-- Nor is the scale column. -/
theorem W5_v11 (c : Dev nD) : W5 m ρ c (Proc.devRef .tc main_v11) = W4 m ρ c (Proc.devRef .tc main_v11) := by
  dsimp only [W5]
  simp only [hostOps1]
  after_results_simp <;> rfl

/-- Nor are the second layer's weights. -/
theorem W5_arg6 (c : Dev nD) : W5 m ρ c (Proc.devRef .tc main_arg6) = W4 m ρ c (Proc.devRef .tc main_arg6) := by
  dsimp only [W5]
  simp only [hostOps1]
  after_results_simp <;> rfl
theorem W5_arg7 (c : Dev nD) : W5 m ρ c (Proc.devRef .tc main_arg7) = W4 m ρ c (Proc.devRef .tc main_arg7) := by
  dsimp only [W5]
  simp only [hostOps1]
  after_results_simp <;> rfl

/-- The summed neighbour features of the first layer's output. -/
theorem W5_v34 (c : Dev nD) : W5 m ρ c (Proc.devRef .tc main_v34)
    = aggKb (W4 m ρ c (Proc.devRef .tc main_v23)) (W4 m ρ c (Proc.devRef .tc main_arg1)) (W4 m ρ c (Proc.devRef .tc main_arg2)) := by
  dsimp only [W5]
  simp only [hostOps1]
  after_results_simp
  rfl

/-- The second layer's bias, laid out as a row. -/
theorem W5_v35 (c : Dev nD) : W5 m ρ c (Proc.devRef .tc main_v35)
    = shapeCast S1x64 (W4 m ρ c (Proc.devRef .tc main_arg8)) shapeCasts_S64_S1x64 := by
  dsimp only [W5]
  simp only [hostOps1]
  after_results_simp
  rfl

end Cert.Sage.Ker

end
-- ==== Proof.ChainC.lean ====
/-
  The kernel program's result as two layers of the specification over the launch contents of its arguments.

  The first region leaves the first layer of what it found: the node features, their summed neighbour features, the
  scale column, the first weights and bias. The second region leaves the second layer of what it found: the first
  layer's output, ITS summed neighbour features, the same scale column, the second weights and bias. Widening from the
  short float format is the identity at the extended reals, a vector reshaped to a column or a row is the vector seen
  as that column or row, and the arguments reach both regions unwritten.
-/
import proofs.«152875_j89850715833230_2_alg».proof.Proof.Region0
import proofs.«152875_j89850715833230_2_alg».proof.Proof.Region1
import proofs.«152875_j89850715833230_2_alg».proof.Proof.ChainA
import proofs.«152875_j89850715833230_2_alg».proof.Proof.ChainB

set_option maxRecDepth 16384

noncomputable section

namespace Cert.Sage.Ker

open Idealize.ShloMosaic Idealize.ShloMosaic.TcCoe Idealize.ShloMosaic.ValueIdx Idealize.SL.Sem
open Cert.KernelIdeal Cert.KernelIdeal.Gen

/-! ## Three identities at the extended reals -/

/-- Widening a float format changes nothing. -/
theorem extf_id {s : Shape} (x : FVec Ideal s .bf16) (h : FTy.bits .bf16 < FTy.bits .f32) :
    (extf .f32 x h : FVec Ideal s .f32) = x := funext fun _ => rfl

/-- So the neighbour sums of features held in the short format are the neighbour sums of those features. -/
theorem aggKb_eq (h : FVec Ideal S100000x64 .bf16) (src dst : IVec S1600000 32) :
    aggKb (F := Ideal) h src dst = aggK (F := Ideal) h src dst := by
  unfold aggKb aggK
  rw [extf_id]

/-- A vector [100000] reshaped to a column is the vector seen as a column. -/
theorem col_eq (d : FVec Ideal S100000 .f32) : shapeCast S100000x1 d shapeCasts_S100000_S100000x1 = colOf d := by
  funext i
  obtain ⟨p, z, rfl⟩ : ∃ (p : Fin 100000) (z : Fin 1), i = ix2 p z := ⟨i 0, i 1, eq_ix2 i⟩
  obtain rfl : z = 0 := Subsingleton.elim _ _
  show _ = d (ix1 p)
  exact Cert.LibLinTwo.reshape_col_apply d shapeCasts_S100000_S100000x1 p

/-- A vector [64] reshaped to a row is the vector seen as a row. -/
theorem row_eq (b : FVec Ideal S64 .f32) : shapeCast S1x64 b shapeCasts_S64_S1x64 = rowOf b := by
  funext i
  obtain ⟨z, q, rfl⟩ : ∃ (z : Fin 1) (q : Fin 64), i = ix2 z q := ⟨i 0, i 1, eq_ix2 i⟩
  obtain rfl : z = 0 := Subsingleton.elim _ _
  show _ = b (ix1 q)
  exact Cert.LibLinTwo.reshape_row_apply b shapeCasts_S64_S1x64 q

variable (m : (ℓ : Loc nD τ sig) → Buf (Elt Ideal) ℓ) (ρ : Dev nD → PrngReg)

/-! ## After the first region -/

/-- The first layer's output, as a function of the launch contents. -/
def hidden (c : Dev nD) : S100000x64.Idx → EReal :=
  layerRelu (M := 100000) (m ((c.tc : Thread nD τ).loc main_arg0)) (aggK (F := Ideal) (m ((c.tc : Thread nD τ).loc main_arg0)) (m ((c.tc : Thread nD τ).loc main_arg1)) (m ((c.tc : Thread nD τ).loc main_arg2)))
    (colOf (invK (F := Ideal) (m ((c.tc : Thread nD τ).loc main_arg2)))) (m ((c.tc : Thread nD τ).loc main_arg3)) (m ((c.tc : Thread nD τ).loc main_arg4)) (rowOf (m ((c.tc : Thread nD τ).loc main_arg5)))

/-- The first region's result array holds the first layer's output. -/
theorem W4_v23 (c : Dev nD) : W4 m ρ c (Proc.devRef .tc main_v23) = hidden m c := by
  refine (W4_arr m ρ c 6).trans ((final0 (V3 m ρ) c).trans ?_)
  unfold result0 hidden
  show layerRelu (M := 100000) (W3 m ρ c (Proc.devRef .tc main_arg0)) (W3 m ρ c (Proc.devRef .tc main_v21)) (W3 m ρ c (Proc.devRef .tc main_v11)) (W3 m ρ c (Proc.devRef .tc main_arg3)) (W3 m ρ c (Proc.devRef .tc main_arg4)) (W3 m ρ c (Proc.devRef .tc main_v22)) = _
  rw [W3_arg0, W3_v21, W3_v11, W3_arg3, W3_arg4, W3_v22, col_eq, row_eq]

/-- Argument 1 is no array of the first region: it is as the region found it, as launched. -/
theorem W4_arg1 (c : Dev nD) : W4 m ρ c (Proc.devRef .tc main_arg1) = m ((c.tc : Thread nD τ).loc main_arg1) :=
  (W4_of_ne m ρ c main_arg1 (by decide)).trans (W3_arg1 m ρ c)
/-- Argument 2 is no array of the first region: it is as the region found it, as launched. -/
theorem W4_arg2 (c : Dev nD) : W4 m ρ c (Proc.devRef .tc main_arg2) = m ((c.tc : Thread nD τ).loc main_arg2) :=
  (W4_of_ne m ρ c main_arg2 (by decide)).trans (W3_arg2 m ρ c)
/-- Argument 6 is no array of the first region: it is as the region found it, as launched. -/
theorem W4_arg6 (c : Dev nD) : W4 m ρ c (Proc.devRef .tc main_arg6) = m ((c.tc : Thread nD τ).loc main_arg6) :=
  (W4_of_ne m ρ c main_arg6 (by decide)).trans (W3_arg6 m ρ c)
/-- Argument 7 is no array of the first region: it is as the region found it, as launched. -/
theorem W4_arg7 (c : Dev nD) : W4 m ρ c (Proc.devRef .tc main_arg7) = m ((c.tc : Thread nD τ).loc main_arg7) :=
  (W4_of_ne m ρ c main_arg7 (by decide)).trans (W3_arg7 m ρ c)
/-- Argument 8 is no array of the first region: it is as the region found it, as launched. -/
theorem W4_arg8 (c : Dev nD) : W4 m ρ c (Proc.devRef .tc main_arg8) = m ((c.tc : Thread nD τ).loc main_arg8) :=
  (W4_of_ne m ρ c main_arg8 (by decide)).trans (W3_arg8 m ρ c)

/-- The scale column is an input of the first region: it leaves it as found. -/
theorem W4_v11 (c : Dev nD) : W4 m ρ c (Proc.devRef .tc main_v11) = colOf (invK (F := Ideal) (m ((c.tc : Thread nD τ).loc main_arg2))) :=
  ((W4_arr m ρ c 2).trans (((dat0 (V3 m ρ) c).arrAt_in 2 rfl _).trans (A_eq0 (V3 m ρ) c 2))).trans
    ((W3_v11 m ρ c).trans (col_eq _))

/-! ## After the second region -/

/-- The second layer over the first layer's output and its summed neighbour features, as a function of the launch contents. -/
def value (c : Dev nD) : S100000x64.Idx → EReal :=
  layerLin (M := 100000) (hidden m c) (aggK (F := Ideal) (hidden m c) (m ((c.tc : Thread nD τ).loc main_arg1)) (m ((c.tc : Thread nD τ).loc main_arg2)))
    (colOf (invK (F := Ideal) (m ((c.tc : Thread nD τ).loc main_arg2)))) (m ((c.tc : Thread nD τ).loc main_arg6)) (m ((c.tc : Thread nD τ).loc main_arg7)) (rowOf (m ((c.tc : Thread nD τ).loc main_arg8)))

/-- THE KERNEL PROGRAM'S RESULT: its result array ends at that value. -/
theorem kernel_value (c : Dev nD) : W6 m ρ c (Proc.devRef .tc main_v36) = value m c := by
  refine (W6_arr m ρ c 6).trans ((final1 (V5 m ρ) c).trans ?_)
  unfold result1 value
  show layerLin (M := 100000) (W5 m ρ c (Proc.devRef .tc main_v23)) (W5 m ρ c (Proc.devRef .tc main_v34)) (W5 m ρ c (Proc.devRef .tc main_v11)) (W5 m ρ c (Proc.devRef .tc main_arg6)) (W5 m ρ c (Proc.devRef .tc main_arg7)) (W5 m ρ c (Proc.devRef .tc main_v35)) = _
  rw [W5_v23, W5_v34, W5_v11, W5_arg6, W5_arg7, W5_v35, W4_v23, W4_v11, W4_arg1, W4_arg2, W4_arg6, W4_arg7, W4_arg8,
    aggKb_eq, row_eq]

end Cert.Sage.Ker

end
-- ==== Proof.RefTerm.lean ====
/-
  The reference's result as two layers over named pieces.

  The reference's composed term is, read from the outside in: the affine part of the second layer applied to the first
  layer's output, where each layer takes node features `h`, gathers them along the edges (`h[src]`, negative indices
  wrapped), sums them into the destination nodes, scales row `p` by one over the in-degree of `p` (zero for a node
  with no in-edge), and adds the two products and the bias. Here the shared pieces get names — `aggR h src dst` the
  summed neighbour features, `invR dst` the per-node scale as a vector [100000] — and stay closed: nothing below
  opens a gather or a scatter. `refAff` and `refRelu` are the reference's spelling of a layer over those pieces.
-/
import proofs.«152875_j89850715833230_2_alg».proof.Proof.Gen.ReferenceIdeal
import proofs.«152875_j89850715833230_2_alg».proof.Proof.RefRun
import proofs.«152875_j89850715833230_2_alg».proof.Proof.LibLinTwo
import proofs.«152875_j89850715833230_2_alg».proof.Proof.Spec

set_option maxRecDepth 16384

noncomputable section

namespace Cert.Sage

open Idealize.ShloMosaic Idealize.ShloMosaic.TcCoe Idealize.ShloMosaic.ValueIdx Idealize.SL.Sem

namespace Ref

open Cert.ReferenceIdeal Cert.ReferenceIdeal.Gen

variable {F : FTy → Type} [FloatOps F]

/-- The summed neighbour features: `h` gathered along the edges' sources (a negative index wrapped by the node count)
    and added into the edges' destinations, from the zero array. -/
def aggR (h : FVec F S100000x64 .f32) (src dst : IVec S1600000 32) :
    FVec F S100000x64 .f32 :=
  Host.scatterAdd (F := F) scatter_S100000x64_S1600000x1_S1600000x64_1_0_0_1
    (broadcastInDim S100000x64 ![] bcast_S_S100000x64 (constant (F := F) S_ .f32 0x00000000#32))
    (broadcastInDim S1600000x1 ![0] bcast_S1600000_S1600000x1_0 dst)
    (Host.gather gather_S100000x64_S1600000x1_S1600000x64_1_0_n_n_0_1_164 h
      (broadcastInDim S1600000x1 ![0] bcast_S1600000_S1600000x1_0
        (select (cmpi .slt src (broadcastInDim S1600000 ![] bcast_S_S1600000 (constantI S_ 32 0#32)))
          (addi src (broadcastInDim S1600000 ![] bcast_S_S1600000 (constantI S_ 32 100000#32))) src)))

/-- The in-degree of every node: ones added into the edges' destinations. -/
def degR (dst : IVec S1600000 32) : FVec F S100000 .f32 :=
  Host.scatterAdd (F := F) scatter_S100000_S1600000x1_S1600000_n_0_0_1
    (broadcastInDim S100000 ![] bcast_S_S100000 (constant (F := F) S_ .f32 0x00000000#32))
    (broadcastInDim S1600000x1 ![0] bcast_S1600000_S1600000x1_0 dst)
    (broadcastInDim S1600000 ![] bcast_S_S1600000 (constant (F := F) S_ .f32 0x3F800000#32))

/-- The per-node scale: one over the in-degree where it is positive, zero elsewhere. -/
def invR (dst : IVec S1600000 32) : FVec F S100000 .f32 :=
  select (cmpf (F := F) .ogt (degR dst) (broadcastInDim S100000 ![] bcast_S_S100000 (constant (F := F) S_ .f32 0x00000000#32)))
    (Host.divf (F := F) (broadcastInDim S100000 ![] bcast_S_S100000 (constant (F := F) S_ .f32 0x3F800000#32))
      (maximumf (F := F) (degR dst) (broadcastInDim S100000 ![] bcast_S_S100000 (constant (F := F) S_ .f32 0x3F800000#32))))
    (broadcastInDim S100000 ![] bcast_S_S100000 (id (constant (F := F) S_ .f32 0x00000000#32)))

/-- The reference's spelling of a layer's affine part. -/
def refAff (x agg : FVec F S100000x64 .f32) (d : FVec F S100000 .f32)
    (ws wn : FVec F S64x64 .f32) (b : FVec F S64 .f32) :
    FVec F S100000x64 .f32 :=
  addf (F := F) (addf (F := F) (Host.dotGeneral (F := F) dot_S100000x64_S64x64_S100000x64_1_0_0_1_n_n none x ws)
      (Host.dotGeneral (F := F) dot_S100000x64_S64x64_S100000x64_1_0_0_1_n_n none
        (mulf (F := F) agg (broadcastInDim S100000x64 ![0, 1] bcast_S100000x1_S100000x64_0_1 (broadcastInDim S100000x1 ![0] bcast_S100000_S100000x1_0 d))) wn))
    (broadcastInDim S100000x64 ![0, 1] bcast_S1x64_S100000x64_0_1 (broadcastInDim S1x64 ![1] bcast_S64_S1x64_1 b))

/-- The reference's spelling of the first layer: the affine part clipped below at zero. -/
def refRelu (x agg : FVec F S100000x64 .f32) (d : FVec F S100000 .f32)
    (ws wn : FVec F S64x64 .f32) (b : FVec F S64 .f32) :
    FVec F S100000x64 .f32 :=
  maximumf (F := F) (refAff x agg d ws wn b) (broadcastInDim S100000x64 ![] bcast_S_S100000x64 (constant (F := F) S_ .f32 0x00000000#32))

/-- The reference's composed term is its second layer's affine part over its first layer's output. -/
theorem res_eq (m : (ℓ : Loc nD τ sig) → Buf (Elt F) ℓ) (c : Dev nD) :
    Cert.ReferenceIdeal.RunP.res_main_v48 (F := F) m c
      = refAff
          (refRelu (m ((c.tc : Thread nD τ).loc main_arg0))
            (aggR (m ((c.tc : Thread nD τ).loc main_arg0)) (m ((c.tc : Thread nD τ).loc main_arg1)) (m ((c.tc : Thread nD τ).loc main_arg2)))
            (invR (m ((c.tc : Thread nD τ).loc main_arg2)))
            (m ((c.tc : Thread nD τ).loc main_arg3)) (m ((c.tc : Thread nD τ).loc main_arg4)) (m ((c.tc : Thread nD τ).loc main_arg5)))
          (aggR
            (refRelu (m ((c.tc : Thread nD τ).loc main_arg0))
              (aggR (m ((c.tc : Thread nD τ).loc main_arg0)) (m ((c.tc : Thread nD τ).loc main_arg1)) (m ((c.tc : Thread nD τ).loc main_arg2)))
              (invR (m ((c.tc : Thread nD τ).loc main_arg2)))
              (m ((c.tc : Thread nD τ).loc main_arg3)) (m ((c.tc : Thread nD τ).loc main_arg4)) (m ((c.tc : Thread nD τ).loc main_arg5)))
            (m ((c.tc : Thread nD τ).loc main_arg1)) (m ((c.tc : Thread nD τ).loc main_arg2)))
          (invR (m ((c.tc : Thread nD τ).loc main_arg2)))
          (m ((c.tc : Thread nD τ).loc main_arg6)) (m ((c.tc : Thread nD τ).loc main_arg7)) (m ((c.tc : Thread nD τ).loc main_arg8)) := by
  unfold Cert.ReferenceIdeal.RunP.res_main_v48 refAff refRelu aggR invR degR
  rfl

end Ref

end Cert.Sage

end
-- ==== Proof.RefValue.lean ====
/-
  The reference's layers read at an entry: each is the specification's layer, with the scale vector seen as a column
  and the bias vector as a row.

  The host's product of an [100000, 64] by a [64, 64] array contracted over the shared axis is the sum over `k`; the
  scale [100000] laid out as [100000, 1] and repeated over the 64 columns reads at (p, k) its entry p; the bias [64]
  laid out as [1, 64] and repeated over the rows reads at (p, q) its entry q; the zero of the clip is one word repeated.
-/
import proofs.«152875_j89850715833230_2_alg».proof.Proof.RefTerm

set_option maxRecDepth 16384

noncomputable section

namespace Cert.Sage

open Idealize.ShloMosaic Idealize.ShloMosaic.TcCoe Idealize.ShloMosaic.ValueIdx Idealize.SL.Sem

namespace Ref

open Cert.ReferenceIdeal Cert.ReferenceIdeal.Gen

/-- The reference's affine part read at an entry is the specification's. -/
theorem refAff_eq (x agg : FVec Ideal S100000x64 .f32) (d : FVec Ideal S100000 .f32)
    (ws wn : FVec Ideal S64x64 .f32) (b : FVec Ideal S64 .f32) :
    refAff x agg d ws wn b = layerLin (M := 100000) x agg (colOf d) ws wn (rowOf b) := by
  funext i
  obtain ⟨p, q, rfl⟩ : ∃ (p : Fin 100000) (q : Fin 64), i = ix2 p q := ⟨i 0, i 1, eq_ix2 i⟩
  show refAff x agg d ws wn b (ix2 p q) = lin (M := 100000) x agg (colOf d) ws wn (rowOf b) p q
  unfold refAff lin
  refine congrArg₂ (· + ·) (congrArg₂ (· + ·) ?_ ?_) ?_
  · exact (Ideal.dotGeneral_apply dot_S100000x64_S64x64_S100000x64_1_0_0_1_n_n none .single x ws (ix2 p q)).trans
      (Cert.LibDotSum.sum_dot dot_S100000x64_S64x64_S100000x64_1_0_0_1_n_n rfl rfl
        (fun _ _ => rfl) (fun _ _ => rfl) (fun _ _ => rfl) (fun _ _ => rfl) x ws p q)
  · refine ((Ideal.dotGeneral_apply dot_S100000x64_S64x64_S100000x64_1_0_0_1_n_n none .single _ wn (ix2 p q)).trans
      (Cert.LibDotSum.sum_dot dot_S100000x64_S64x64_S100000x64_1_0_0_1_n_n rfl rfl
        (fun _ _ => rfl) (fun _ _ => rfl) (fun _ _ => rfl) (fun _ _ => rfl) _ wn p q)).trans
      (Finset.sum_congr rfl fun k _ => congrArg (· * wn (ix2 k q)) ?_)
    refine congrArg (agg (ix2 p k) * ·) ?_
    exact (Cert.LibLinTwo.col_apply _ bcast_S100000x1_S100000x64_0_1 p k).trans
      (Cert.LibLinTwo.colVec_apply d bcast_S100000_S100000x1_0 p)
  · exact Cert.LibDotSum.bias_apply b bcast_S64_S1x64_1 bcast_S1x64_S100000x64_0_1 p q

/-- The reference's first layer is the specification's. -/
theorem refRelu_eq (x agg : FVec Ideal S100000x64 .f32) (d : FVec Ideal S100000 .f32)
    (ws wn : FVec Ideal S64x64 .f32) (b : FVec Ideal S64 .f32) :
    refRelu x agg d ws wn b = layerRelu (M := 100000) x agg (colOf d) ws wn (rowOf b) := by
  unfold refRelu
  rw [refAff_eq]
  funext i
  show max (layerLin (M := 100000) x agg (colOf d) ws wn (rowOf b) i)
      (broadcastInDim S100000x64 ![] bcast_S_S100000x64 (constant (F := Ideal) S_ .f32 0x00000000#32) i) = _
  rw [Cert.LibDenseTwo.scalar_bcast_apply _ bcast_S_S100000x64 i]
  rfl

end Ref

end Cert.Sage

end
-- ==== Proof.Bridge.lean ====
/-
  The two programs compute one function of their arguments.

  The kernel program's result is the second layer over the first layer's output, over the shared pieces named in the
  kernel program's vocabulary; the reference's result is the same expression over the same pieces named in the
  reference's vocabulary. The pieces are literally the same host operations of the same arguments, so they are equal
  whatever the float instance; with arguments that agree, the two results are one array.
-/
import proofs.«152875_j89850715833230_2_alg».proof.Proof.ChainC
import proofs.«152875_j89850715833230_2_alg».proof.Proof.RefValue

set_option maxRecDepth 16384

noncomputable section

namespace Cert.Sage

open Idealize.ShloMosaic Idealize.ShloMosaic.TcCoe Idealize.ShloMosaic.ValueIdx Idealize.SL.Sem

/-- The summed neighbour features are the same host operations in both programs. -/
theorem agg_eq {F : FTy → Type} [FloatOps F] (h : FVec F Cert.KernelIdeal.S100000x64 .f32) (src dst : IVec Cert.KernelIdeal.S1600000 32) :
    Ref.aggR (F := F) h src dst = Ker.aggK (F := F) h src dst := by
  unfold Ref.aggR Ker.aggK
  rfl

/-- So is the per-node scale. -/
theorem inv_eq {F : FTy → Type} [FloatOps F] (dst : IVec Cert.KernelIdeal.S1600000 32) :
    Ref.invR (F := F) dst = Ker.invK (F := F) dst := by
  unfold Ref.invR Ref.degR Ker.invK Ker.degK
  rfl

/-- THE REFERENCE'S RESULT on arguments that agree with the kernel program's is the kernel program's result. -/
theorem ref_value (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0)))
    (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2)))
    (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4)))
    (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5)))
    (h6 : (m' ((c.tc : Thread Cert.ReferenceIdeal.nD Cert.ReferenceIdeal.τ).loc Cert.ReferenceIdeal.main_arg6)) = (m ((c.tc : Thread Cert.KernelIdeal.nD Cert.KernelIdeal.τ).loc Cert.KernelIdeal.main_arg6)))
    (h7 : (m' ((c.tc : Thread Cert.ReferenceIdeal.nD Cert.ReferenceIdeal.τ).loc Cert.ReferenceIdeal.main_arg7)) = (m ((c.tc : Thread Cert.KernelIdeal.nD Cert.KernelIdeal.τ).loc Cert.KernelIdeal.main_arg7)))
    (h8 : (m' ((c.tc : Thread Cert.ReferenceIdeal.nD Cert.ReferenceIdeal.τ).loc Cert.ReferenceIdeal.main_arg8)) = (m ((c.tc : Thread Cert.KernelIdeal.nD Cert.KernelIdeal.τ).loc Cert.KernelIdeal.main_arg8))) :
    Cert.ReferenceIdeal.RunP.res_main_v48 (F := Ideal) m' c = Ker.value m c := by
  rw [Ref.res_eq, h0, h1, h2, h3, h4, h5, h6, h7, h8]
  rw [Ref.refRelu_eq, Ref.refAff_eq, agg_eq, agg_eq, inv_eq]
  rfl

end Cert.Sage

end
-- ==== Proof.lean ====
/-
  Two graph-convolution layers with mean aggregation over in-neighbours (the first followed by a clip below at zero):
  a program that computes each layer's dense part in a tiled kernel, against a plain array program.

  Both programs compute, from the edge list alone, the in-degree of every node and the scale `inv(p) = 1 / deg(p)`
  (zero where `deg(p) = 0`), and per layer the summed neighbour features `agg(p, ·) = ∑_{e : dst e = p} h(src e, ·)`.
  A layer's affine part at node `p`, feature `q` is

      (∑ₖ h(p,k)·Ws(k,q) + ∑ₖ (agg(p,k)·inv(p))·Wn(k,q)) + b(q).

  The kernel program computes it 5000 rows at a time in a pallas_call over 20 grid points (an entry depends on its own
  row of `h`, `agg` and `inv` only, and the 20 blocks of rows tile the array), holding the first layer's output and
  the products' operands in a shorter float format — which at the extended reals changes nothing — and leaves the
  gathers and scatter-adds to the host, exactly as the reference spells them. The reference computes the same
  expression as whole-array operations. The two sums are grouped the same way on both sides, so no law of arithmetic
  beyond reading each operation at an index is used, and the precondition (finite inputs) is never opened.

  The pieces: Spec (the layer as a function), Body (what a kernel body stores, at an entry), Region0 / Region1 (each
  pallas_call's result array as the layer of the arrays it finds), ChainA / ChainB / ChainC (what each region finds,
  through the host operations, down to the launch contents), KRun (the kernel program's run with its result named),
  RefRun / RefTerm / RefValue (the reference's run, its term as two layers, each layer read at an entry), Bridge (the
  two results are one array).
-/
import proofs.«152875_j89850715833230_2_alg».proof.Defs
import proofs.«152875_j89850715833230_2_alg».proof.Proof.Gen.Kernel
import proofs.«152875_j89850715833230_2_alg».proof.Proof.Gen.Kernel.Frame
import proofs.«152875_j89850715833230_2_alg».proof.Proof.Gen.KernelIdeal
import proofs.«152875_j89850715833230_2_alg».proof.Proof.Gen.KernelIdeal.Frame
import proofs.«152875_j89850715833230_2_alg».proof.Proof.Gen.ReferenceIdeal
import proofs.«152875_j89850715833230_2_alg».proof.Proof.Gen.Pre_finite_inputs
import proofs.«152875_j89850715833230_2_alg».proof.Proof.KRun
import proofs.«152875_j89850715833230_2_alg».proof.Proof.RefRun
import proofs.«152875_j89850715833230_2_alg».proof.Proof.Bridge
import Idealize.ShloMosaic.Adequacy
import Idealize.ShloMosaic.Init

noncomputable section

namespace Cert.Proof

open Idealize.ShloMosaic Idealize.SL.Sem

/-- The kernel program as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- From memories agreeing on the arguments both programs end with the same result array: two layers of the
    specification over the launch contents. -/
theorem algebraic : Cert.algebraic_KernelIdeal_ReferenceIdeal := by
  intro m ρ m' ρ' _ hagree
  refine ⟨fun c => Cert.Sage.Ker.value m c, ?_, ?_⟩
  · exact (θ_run Cert.KernelIdeal.defs _ _).mono
      (fun _ h c => ⟨(h c).1.trans (Cert.Sage.Ker.kernel_value m ρ c), (h c).2⟩)
      (Cert.KernelIdeal.Named.run (F := Ideal) m ρ)
  · refine (θ_run Cert.ReferenceIdeal.defs _ _).mono (fun _ h c => ⟨(h c).1.trans ?_, (h c).2⟩)
      (Cert.ReferenceIdeal.RunP.run (F := Ideal) m' ρ')
    obtain ⟨h0, h1, h2, h3, h4, h5, h6, h7, h8⟩ := hagree c
    exact Cert.Sage.ref_value m m' c h0 h1 h2 h3 h4 h5 h6 h7 h8

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
